-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x128 : Shape := ⟨3, ![4096, 49, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S169x4 : Shape := ⟨2, ![169, 4]⟩
abbrev S49x49 : Shape := ⟨2, ![49, 49]⟩
abbrev S_ : Shape := ⟨0, ![]⟩

class Facts : Prop where
  bcast_S_S4096x49x128 : S_.BroadcastsInDim S4096x49x128 (![] : Fin 0 → Fin S4096x49x128.rank)
  reducesTo_S4096x49x128_S_d0_1_2 : S4096x49x128.ReducesTo [0, 1, 2] S_
  h_S_ : 0 < S_.numel
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S169x4 : S_.BroadcastsInDim S169x4 (![] : Fin 0 → Fin S169x4.rank)
  reducesTo_S169x4_S_d0_1 : S169x4.ReducesTo [0, 1] S_

variable [Facts]

def fn_part1 {F : FTy → Type} [FloatOps F] (main_arg4 : FVec F S128 .f32) (main_arg5 : FVec F S169x4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S169x4 .f32 := Host.absf main_arg5
  let main_cst_8 : FVec F S_ .f32 := constant S_ .f32 0x7F800000#32
  let main_v25 : FVec F S169x4 .f32 := broadcastInDim S169x4 ![] bcast_S_S169x4 main_cst_8
  let main_v26 : IVec S169x4 1 := cmpf .olt main_v24 main_v25
  let main_c_9 : IVec S_ 1 := constantI S_ 1 1#1
  let main_v27 : IVec S_ 1 := (fun x v => Host.reduce IntOp.andi x v reducesTo_S169x4_S_d0_1 h_S_) main_v26 main_c_9
  let main_v28 : IVec S_ 1 := andi main_v23 main_v27
  main_v28

def fn {F : FTy → Type} [FloatOps F] (main_arg0 : FVec F S4096x49x128 .f32) (main_arg1 : FVec F S384x128 .f32) (main_arg2 : FVec F S384 .f32) (main_arg3 : FVec F S128x128 .f32) (main_arg4 : FVec F S128 .f32) (main_arg5 : FVec F S169x4 .f32) (main_arg6 : IVec S49x49 32) : IVec S_ 1 :=
  let main_v0 : FVec F S4096x49x128 .f32 := Host.absf main_arg0
  let main_cst : FVec F S_ .f32 := constant S_ .f32 0x7F800000#32
  let main_v1 : FVec F S4096x49x128 .f32 := broadcastInDim S4096x49x128 ![] bcast_S_S4096x49x128 main_cst
  let main_v2 : IVec S4096x49x128 1 := cmpf .olt main_v0 main_v1
  let main_c : IVec S_ 1 := constantI S_ 1 1#1
  let main_v3 : IVec S_ 1 := (fun x v => Host.reduce IntOp.andi x v reducesTo_S4096x49x128_S_d0_1_2 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S4096x49x128 : Shape := ⟨3, ![4096, 49, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S169x4 : Shape := ⟨2, ![169, 4]⟩
abbrev S49x49 : Shape := ⟨2, ![49, 49]⟩
abbrev S2401 : Shape := ⟨1, ![2401]⟩
abbrev S_ : Shape := ⟨0, ![]⟩
abbrev S2401x1 : Shape := ⟨2, ![2401, 1]⟩
abbrev S2401x4 : Shape := ⟨2, ![2401, 4]⟩
abbrev S49x49x4 : Shape := ⟨3, ![49, 49, 4]⟩
abbrev S4x49x49 : Shape := ⟨3, ![4, 49, 49]⟩
abbrev S64x49x128 : Shape := ⟨3, ![64, 49, 128]⟩
abbrev S3136x128 : Shape := ⟨2, ![3136, 128]⟩
abbrev S128x384 : Shape := ⟨2, ![128, 384]⟩
abbrev S3136x384 : Shape := ⟨2, ![3136, 384]⟩
abbrev S1x384 : Shape := ⟨2, ![1, 384]⟩
abbrev S64x49x384 : Shape := ⟨3, ![64, 49, 384]⟩
abbrev S64x49x32 : Shape := ⟨3, ![64, 49, 32]⟩
abbrev S64x49x49 : Shape := ⟨3, ![64, 49, 49]⟩
abbrev S1x49x49 : Shape := ⟨3, ![1, 49, 49]⟩
abbrev S64x49 : Shape := ⟨2, ![64, 49]⟩
abbrev S64x49x1 : Shape := ⟨3, ![64, 49, 1]⟩
abbrev S1x128 : Shape := ⟨2, ![1, 128]⟩

abbrev nBuf : Space → Nat
  | .hbm => 20
  | .vmem => 9
  | .smem => 0
  | _ => 0

abbrev bufTy : (tb : Table) → Fin (tcTables nBuf tb) → BufTy
  | .hbm, ⟨0, _⟩ => ⟨S4096x49x128, .f32⟩
  | .hbm, ⟨1, _⟩ => ⟨S384x128, .f32⟩
  | .hbm, ⟨2, _⟩ => ⟨S384, .f32⟩
  | .hbm, ⟨3, _⟩ => ⟨S128x128, .f32⟩
  | .hbm, ⟨4, _⟩ => ⟨S128, .f32⟩
  | .hbm, ⟨5, _⟩ => ⟨S169x4, .f32⟩
  | .hbm, ⟨6, _⟩ => ⟨S49x49, .i32⟩
  | .hbm, ⟨7, _⟩ => ⟨S2401, .i32⟩
  | .hbm, ⟨8, _⟩ => ⟨S_, .i32⟩
  | .hbm, ⟨9, _⟩ => ⟨S2401, .i32⟩
  | .hbm, ⟨10, _⟩ => ⟨S2401, .i1⟩
  | .hbm, ⟨11, _⟩ => ⟨S_, .i32⟩
  | .hbm, ⟨12, _⟩ => ⟨S2401, .i32⟩
  | .hbm, ⟨13, _⟩ => ⟨S2401, .i32⟩
  | .hbm, ⟨14, _⟩ => ⟨S2401, .i32⟩
  | .hbm, ⟨15, _⟩ => ⟨S2401x1, .i32⟩
  | .hbm, ⟨16, _⟩ => ⟨S2401x4, .f32⟩
  | .hbm, ⟨17, _⟩ => ⟨S49x49x4, .f32⟩
  | .hbm, ⟨18, _⟩ => ⟨S4x49x49, .f32⟩
  | .hbm, ⟨19, _⟩ => ⟨S4096x49x128, .f32⟩
  | .local _ .vmem, ⟨0, _⟩ => ⟨S64x49x128, .f32⟩
  | .local _ .vmem, ⟨1, _⟩ => ⟨S64x49x128, .f32⟩
  | .local _ .vmem, ⟨2, _⟩ => ⟨S384x128, .f32⟩
  | .local _ .vmem, ⟨3, _⟩ => ⟨S384, .f32⟩
  | .local _ .vmem, ⟨4, _⟩ => ⟨S128x128, .f32⟩
  | .local _ .vmem, ⟨5, _⟩ => ⟨S128, .f32⟩
  | .local _ .vmem, ⟨6, _⟩ => ⟨S4x49x49, .f32⟩
  | .local _ .vmem, ⟨7, _⟩ => ⟨S64x49x128, .f32⟩
  | .local _ .vmem, ⟨8, _⟩ => ⟨S64x49x128, .f32⟩
  | _, _ => ⟨S4096x49x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x49x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x49x49 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x49x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x4_S49x49x4 : S2401x4.ShapeCasts S49x49x4
  transposes_S49x49x4_S4x49x49_2_0_1 : S49x49x4.Transposes [2, 0, 1] S4x49x49
  inb_S64x49x128_S64x49x128_0_0_0 : ∀ a, (![0, 0, 0] : Fin 3 → Nat) a + S64x49x128.size a ≤ S64x49x128.size a
  h_S64x49x128 : 0 < S64x49x128.numel
  bitsLt_bf16_f32 : FTy.bits .bf16 < FTy.bits .f32
  shapeCasts_S64x49x128_S3136x128 : S64x49x128.ShapeCasts S3136x128
  inb_S384x128_S384x128_0_0 : ∀ a, (![0, 0] : Fin 2 → Nat) a + S384x128.size a ≤ S384x128.size a
  h_S384x128 : 0 < S384x128.numel
  transposes_S384x128_p1_0_S128x384 : S384x128.Transposes [1, 0] S128x384
  inb_S384_S384_0 : ∀ a, (![0] : Fin 1 → Nat) a + S384.size a ≤ S384.size a
  h_S384 : 0 < S384.numel
  shapeCasts_S384_S1x384 : S384.ShapeCasts S1x384
  broadcasts_S1x384_S3136x384 : S1x384.Broadcasts S3136x384
  shapeCasts_S3136x384_S64x49x384 : S3136x384.ShapeCasts S64x49x384
  slices_S64x49x384_o0_0_0_S64x49x128 : S64x49x384.Slices ![0, 0, 0] S64x49x128
  slices_S64x49x384_o0_0_128_S64x49x128 : S64x49x384.Slices ![0, 0, 128] S64x49x128
  slices_S64x49x384_o0_0_256_S64x49x128 : S64x49x384.Slices ![0, 0, 256] S64x49x128
  slices_S64x49x128_o0_0_0_S64x49x32 : S64x49x128.Slices ![0, 0, 0] S64x49x32
  inb_S4x49x49_S1x49x49_0_0_0 : ∀ a, (![0, 0, 0] : Fin 3 → Nat) a + S1x49x49.size a ≤ S4x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S64x49x49 : S1x49x49.Broadcasts S64x49x49
  reduces_S64x49x49_S64x49 : S64x49x49.Reduces [2] S64x49
  shapeCasts_S64x49_S64x49x1 : S64x49.ShapeCasts S64x49x1
  broadcasts_S64x49x1_S64x49x49 : S64x49x1.Broadcasts S64x49x49
  slices_S64x49x128_o0_0_32_S64x49x32 : S64x49x128.Slices ![0, 0, 32] S64x49x32
  inb_S4x49x49_S1x49x49_1_0_0 : ∀ a, (![1, 0, 0] : Fin 3 → Nat) a + S1x49x49.size a ≤ S4x49x49.size a
  slices_S64x49x128_o0_0_64_S64x49x32 : S64x49x128.Slices ![0, 0, 64] S64x49x32
  inb_S4x49x49_S1x49x49_2_0_0 : ∀ a, (![2, 0, 0] : Fin 3 → Nat) a + S1x49x49.size a ≤ S4x49x49.size a
  slices_S64x49x128_o0_0_96_S64x49x32 : S64x49x128.Slices ![0, 0, 96] S64x49x32
  inb_S4x49x49_S1x49x49_3_0_0 : ∀ a, (![3, 0, 0] : Fin 3 → Nat) a + S1x49x49.size a ≤ S4x49x49.size a
  concatenates_S64x49x32_S64x49x32_S64x49x32_S64x49x32_S64x49x128_d2 : Shape.Concatenates [S64x49x32, S64x49x32, S64x49x32, S64x49x32] S64x49x128 2
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S3136x128 : S1x128.Broadcasts S3136x128
  shapeCasts_S3136x128_S64x49x128 : S3136x128.ShapeCasts S64x49x128
  gather_S169x4_S2401x1_S2401x4_1_0_n_n_0_1_14_wf : GatherDims.WF S169x4 S2401x1 S2401x4 [1] [0] [] [0] [] 1 ![1, 4]
  dot_S3136x128_S128x384_S3136x384_1_0_0_1_n_n_wf : DotDims.WF S3136x128 S128x384 S3136x384 [1] [0] [0] [1] [] []
  dot_S64x49x32_S64x49x32_S64x49x49_2_2_1_1_0_0_wf : DotDims.WF S64x49x32 S64x49x32 S64x49x49 [2] [2] [1] [1] [0] [0]
  dot_S64x49x49_S64x49x32_S64x49x32_2_1_1_2_0_0_wf : DotDims.WF S64x49x49 S64x49x32 S64x49x32 [2] [1] [1] [2] [0] [0]
  dot_S3136x128_S128x128_S3136x128_1_0_0_1_n_n_wf : DotDims.WF S3136x128 S128x128 S3136x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x49x128.size a ≤ S4096x49x128.size a
  hwx0_0 : ∀ i : grid0.Coords, EltTy.bits .f32 = 32 ∨ (Rect.block (s := S4096x49x128) S64x49x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x49x49.size a ≤ S4x49x49.size a
  hwx0_5 : ∀ i : grid0.Coords, EltTy.bits .f32 = 32 ∨ (Rect.block (s := S4x49x49) S4x49x49.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x49x128.size a ≤ S4096x49x128.size a
  hwx0_6 : ∀ i : grid0.Coords, EltTy.bits .f32 = 32 ∨ (Rect.block (s := S4096x49x128) S64x49x128.size (cc0_transform_6 i) (hinb0_6 i)).WholeWords (EltTy.packing .f32)

variable [Facts₀]

def gather_S169x4_S2401x1_S2401x4_1_0_n_n_0_1_14 : GatherDims S169x4 S2401x1 S2401x4 where
  offsetDims := [1]
  collapsedSliceDims := [0]
  operandBatchingDims := []
  startIndicesBatchingDims := []
  startIndexMap := [0]
  indexVectorDim := 1
  sliceSizes := ![1, 4]
  wf := gather_S169x4_S2401x1_S2401x4_1_0_n_n_0_1_14_wf
def dot_S3136x128_S128x384_S3136x384_1_0_0_1_n_n : DotDims S3136x128 S128x384 S3136x384 where
  lhsContracting := [1]
  rhsContracting := [0]
  lhsNonContracting := [0]
  rhsNonContracting := [1]
  lhsBatch := []
  rhsBatch := []
  wf := dot_S3136x128_S128x384_S3136x384_1_0_0_1_n_n_wf
def dot_S64x49x32_S64x49x32_S64x49x49_2_2_1_1_0_0 : DotDims S64x49x32 S64x49x32 S64x49x49 where
  lhsContracting := [2]
  rhsContracting := [2]
  lhsNonContracting := [1]
  rhsNonContracting := [1]
  lhsBatch := [0]
  rhsBatch := [0]
  wf := dot_S64x49x32_S64x49x32_S64x49x49_2_2_1_1_0_0_wf
def dot_S64x49x49_S64x49x32_S64x49x32_2_1_1_2_0_0 : DotDims S64x49x49 S64x49x32 S64x49x32 where
  lhsContracting := [2]
  rhsContracting := [1]
  lhsNonContracting := [1]
  rhsNonContracting := [2]
  lhsBatch := [0]
  rhsBatch := [0]
  wf := dot_S64x49x49_S64x49x32_S64x49x32_2_1_1_2_0_0_wf
def dot_S3136x128_S128x128_S3136x128_1_0_0_1_n_n : DotDims S3136x128 S128x128 S3136x128 where
  lhsContracting := [1]
  rhsContracting := [0]
  lhsNonContracting := [0]
  rhsNonContracting := [1]
  lhsBatch := []
  rhsBatch := []
  wf := dot_S3136x128_S128x128_S3136x128_1_0_0_1_n_n_wf

abbrev win0_0 : Pipeline.Window sig grid0 :=
  Pipeline.Window.ofSpec (Memref.whole main_arg0) S64x49x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S4x49x49.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S64x49x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x49x128 : Shape := ⟨3, ![4096, 49, 128]⟩
abbrev S384x128 : Shape := ⟨2, ![384, 128]⟩
abbrev S384 : Shape := ⟨1, ![384]⟩
abbrev S128x128 : Shape := ⟨2, ![128, 128]⟩
abbrev S128 : Shape := ⟨1, ![128]⟩
abbrev S169x4 : Shape := ⟨2, ![169, 4]⟩
abbrev S49x49 : Shape := ⟨2, ![49, 49]⟩
abbrev S4096x49x384 : Shape := ⟨3, ![4096, 49, 384]⟩
abbrev S1x1x384 : Shape := ⟨3, ![1, 1, 384]⟩
abbrev S4096x49x3x4x32 : Shape := ⟨5, ![4096, 49, 3, 4, 32]⟩
abbrev S4096x49x1x4x32 : Shape := ⟨5, ![4096, 49, 1, 4, 32]⟩
abbrev S4096x49x4x32 : Shape := ⟨4, ![4096, 49, 4, 32]⟩
abbrev S4096x4x49x32 : Shape := ⟨4, ![4096, 4, 49, 32]⟩
abbrev S_ : Shape := ⟨0, ![]⟩
abbrev S4096x4x49x49 : Shape := ⟨4, ![4096, 4, 49, 49]⟩
abbrev S2401 : Shape := ⟨1, ![2401]⟩
abbrev S2401x1 : Shape := ⟨2, ![2401, 1]⟩
abbrev S2401x4 : Shape := ⟨2, ![2401, 4]⟩
abbrev S49x49x4 : Shape := ⟨3, ![49, 49, 4]⟩
abbrev S4x49x49 : Shape := ⟨3, ![4, 49, 49]⟩
abbrev S1x4x49x49 : Shape := ⟨4, ![1, 4, 49, 49]⟩
abbrev S4096x4x49 : Shape := ⟨3, ![4096, 4, 49]⟩
abbrev S4096x4x49x1 : Shape := ⟨4, ![4096, 4, 49, 1]⟩
abbrev S1x1x128 : Shape := ⟨3, ![1, 1, 128]⟩

abbrev nBuf : Space → Nat
  | .hbm => 61
  | .vmem => 0
  | .smem => 0
  | _ => 0

abbrev bufTy : (tb : Table) → Fin (tcTables nBuf tb) → BufTy
  | .hbm, ⟨0, _⟩ => ⟨S4096x49x128, .f32⟩
  | .hbm, ⟨1, _⟩ => ⟨S384x128, .f32⟩
  | .hbm, ⟨2, _⟩ => ⟨S384, .f32⟩
  | .hbm, ⟨3, _⟩ => ⟨S128x128, .f32⟩
  | .hbm, ⟨4, _⟩ => ⟨S128, .f32⟩
  | .hbm, ⟨5, _⟩ => ⟨S169x4, .f32⟩
  | .hbm, ⟨6, _⟩ => ⟨S49x49, .i32⟩
  | .hbm, ⟨7, _⟩ => ⟨S4096x49x384, .f32⟩
  | .hbm, ⟨8, _⟩ => ⟨S1x1x384, .f32⟩
  | .hbm, ⟨9, _⟩ => ⟨S4096x49x384, .f32⟩
  | .hbm, ⟨10, _⟩ => ⟨S4096x49x384, .f32⟩
  | .hbm, ⟨11, _⟩ => ⟨S4096x49x3x4x32, .f32⟩
  | .hbm, ⟨12, _⟩ => ⟨S4096x49x1x4x32, .f32⟩
  | .hbm, ⟨13, _⟩ => ⟨S4096x49x4x32, .f32⟩
  | .hbm, ⟨14, _⟩ => ⟨S4096x4x49x32, .f32⟩
  | .hbm, ⟨15, _⟩ => ⟨S4096x49x1x4x32, .f32⟩
  | .hbm, ⟨16, _⟩ => ⟨S4096x49x4x32, .f32⟩
  | .hbm, ⟨17, _⟩ => ⟨S4096x4x49x32, .f32⟩
  | .hbm, ⟨18, _⟩ => ⟨S4096x49x1x4x32, .f32⟩
  | .hbm, ⟨19, _⟩ => ⟨S4096x49x4x32, .f32⟩
  | .hbm, ⟨20, _⟩ => ⟨S4096x4x49x32, .f32⟩
  | .hbm, ⟨21, _⟩ => ⟨S_, .f32⟩
  | .hbm, ⟨22, _⟩ => ⟨S4096x4x49x32, .f32⟩
  | .hbm, ⟨23, _⟩ => ⟨S4096x4x49x32, .f32⟩
  | .hbm, ⟨24, _⟩ => ⟨S4096x4x49x49, .f32⟩
  | .hbm, ⟨25, _⟩ => ⟨S2401, .i32⟩
  | .hbm, ⟨26, _⟩ => ⟨S_, .i32⟩
  | .hbm, ⟨27, _⟩ => ⟨S2401, .i32⟩
  | .hbm, ⟨28, _⟩ => ⟨S2401, .i1⟩
  | .hbm, ⟨29, _⟩ => ⟨S_, .i32⟩
  | .hbm, ⟨30, _⟩ => ⟨S2401, .i32⟩
  | .hbm, ⟨31, _⟩ => ⟨S2401, .i32⟩
  | .hbm, ⟨32, _⟩ => ⟨S2401, .i32⟩
  | .hbm, ⟨33, _⟩ => ⟨S2401x1, .i32⟩
  | .hbm, ⟨34, _⟩ => ⟨S2401x4, .f32⟩
  | .hbm, ⟨35, _⟩ => ⟨S49x49x4, .f32⟩
  | .hbm, ⟨36, _⟩ => ⟨S4x49x49, .f32⟩
  | .hbm, ⟨37, _⟩ => ⟨S1x4x49x49, .f32⟩
  | .hbm, ⟨38, _⟩ => ⟨S4096x4x49x49, .f32⟩
  | .hbm, ⟨39, _⟩ => ⟨S4096x4x49x49, .f32⟩
  | .hbm, ⟨40, _⟩ => ⟨S_, .f32⟩
  | .hbm, ⟨41, _⟩ => ⟨S4096x4x49, .f32⟩
  | .hbm, ⟨42, _⟩ => ⟨S_, .f32⟩
  | .hbm, ⟨43, _⟩ => ⟨S4096x4x49, .f32⟩
  | .hbm, ⟨44, _⟩ => ⟨S4096x4x49, .f32⟩
  | .hbm, ⟨45, _⟩ => ⟨S4096x4x49x1, .f32⟩
  | .hbm, ⟨46, _⟩ => ⟨S4096x4x49x49, .f32⟩
  | .hbm, ⟨47, _⟩ => ⟨S4096x4x49x49, .f32⟩
  | .hbm, ⟨48, _⟩ => ⟨S4096x4x49x49, .f32⟩
  | .hbm, ⟨49, _⟩ => ⟨S_, .f32⟩
  | .hbm, ⟨50, _⟩ => ⟨S4096x4x49, .f32⟩
  | .hbm, ⟨51, _⟩ => ⟨S4096x4x49x1, .f32⟩
  | .hbm, ⟨52, _⟩ => ⟨S4096x4x49x49, .f32⟩
  | .hbm, ⟨53, _⟩ => ⟨S4096x4x49x49, .f32⟩
  | .hbm, ⟨54, _⟩ => ⟨S4096x4x49x32, .f32⟩
  | .hbm, ⟨55, _⟩ => ⟨S4096x49x4x32, .f32⟩
  | .hbm, ⟨56, _⟩ => ⟨S4096x49x128, .f32⟩
  | .hbm, ⟨57, _⟩ => ⟨S4096x49x128, .f32⟩
  | .hbm, ⟨58, _⟩ => ⟨S1x1x128, .f32⟩
  | .hbm, ⟨59, _⟩ => ⟨S4096x49x128, .f32⟩
  | .hbm, ⟨60, _⟩ => ⟨S4096x49x128, .f32⟩
  | _, _ => ⟨S4096x49x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]

class Facts₀ : Prop where
  bcast_S384_S1x1x384_2 : S384.BroadcastsInDim S1x1x384 (![2] : Fin 1 → Fin S1x1x384.rank)
  bcast_S1x1x384_S4096x49x384_0_1_2 : S1x1x384.BroadcastsInDim S4096x49x384 (![0, 1, 2] : Fin 3 → Fin S4096x49x384.rank)
  shapeCasts_S4096x49x384_S4096x49x3x4x32 : S4096x49x384.ShapeCasts S4096x49x3x4x32
  slices_S4096x49x3x4x32_S4096x49x1x4x32_0_0_0_0_0 : S4096x49x3x4x32.Slices ![0, 0, 0, 0, 0] S4096x49x1x4x32
  shapeCasts_S4096x49x1x4x32_S4096x49x4x32 : S4096x49x1x4x32.ShapeCasts S4096x49x4x32
  transposes_S4096x49x4x32_S4096x4x49x32_0_2_1_3 : S4096x49x4x32.Transposes [0, 2, 1, 3] S4096x4x49x32
  slices_S4096x49x3x4x32_S4096x49x1x4x32_0_0_1_0_0 : S4096x49x3x4x32.Slices ![0, 0, 1, 0, 0] S4096x49x1x4x32
  slices_S4096x49x3x4x32_S4096x49x1x4x32_0_0_2_0_0 : S4096x49x3x4x32.Slices ![0, 0, 2, 0, 0] S4096x49x1x4x32
  bcast_S_S4096x4x49x32 : S_.BroadcastsInDim S4096x4x49x32 (![] : Fin 0 → Fin S4096x4x49x32.rank)
  shapeCasts_S49x49_S2401 : S49x49.ShapeCasts S2401
  bcast_S_S2401 : S_.BroadcastsInDim S2401 (![] : Fin 0 → Fin S2401.rank)
  bcast_S2401_S2401x1_0 : S2401.BroadcastsInDim S2401x1 (![0] : Fin 1 → Fin S2401x1.rank)
  shapeCasts_S2401x4_S49x49x4 : S2401x4.ShapeCasts S49x49x4
  transposes_S49x49x4_S4x49x49_2_0_1 : S49x49x4.Transposes [2, 0, 1] S4x49x49
  bcast_S4x49x49_S1x4x49x49_1_2_3 : S4x49x49.BroadcastsInDim S1x4x49x49 (![1, 2, 3] : Fin 3 → Fin S1x4x49x49.rank)
  bcast_S1x4x49x49_S4096x4x49x49_0_1_2_3 : S1x4x49x49.BroadcastsInDim S4096x4x49x49 (![0, 1, 2, 3] : Fin 4 → Fin S4096x4x49x49.rank)
  reducesTo_S4096x4x49x49_S4096x4x49_d3 : S4096x4x49x49.ReducesTo [3] S4096x4x49
  h_S_ : 0 < S_.numel
  bcast_S_S4096x4x49 : S_.BroadcastsInDim S4096x4x49 (![] : Fin 0 → Fin S4096x4x49.rank)
  bcast_S4096x4x49_S4096x4x49x1_0_1_2 : S4096x4x49.BroadcastsInDim S4096x4x49x1 (![0, 1, 2] : Fin 3 → Fin S4096x4x49x1.rank)
  bcast_S4096x4x49x1_S4096x4x49x49_0_1_2_3 : S4096x4x49x1.BroadcastsInDim S4096x4x49x49 (![0, 1, 2, 3] : Fin 4 → Fin S4096x4x49x49.rank)
  transposes_S4096x4x49x32_S4096x49x4x32_0_2_1_3 : S4096x4x49x32.Transposes [0, 2, 1, 3] S4096x49x4x32
  shapeCasts_S4096x49x4x32_S4096x49x128 : S4096x49x4x32.ShapeCasts S4096x49x128
  bcast_S128_S1x1x128_2 : S128.BroadcastsInDim S1x1x128 (![2] : Fin 1 → Fin S1x1x128.rank)
  bcast_S1x1x128_S4096x49x128_0_1_2 : S1x1x128.BroadcastsInDim S4096x49x128 (![0, 1, 2] : Fin 3 → Fin S4096x49x128.rank)
  dot_S4096x49x128_S384x128_S4096x49x384_2_1_01_0_n_n_wf : DotDims.WF S4096x49x128 S384x128 S4096x49x384 [2] [1] [0, 1] [0] [] []
  dot_S4096x4x49x32_S4096x4x49x32_S4096x4x49x49_3_3_2_2_01_01_wf : DotDims.WF S4096x4x49x32 S4096x4x49x32 S4096x4x49x49 [3] [3] [2] [2] [0, 1] [0, 1]
  gather_S169x4_S2401x1_S2401x4_1_0_n_n_0_1_14_wf : GatherDims.WF S169x4 S2401x1 S2401x4 [1] [0] [] [0] [] 1 ![1, 4]
  dot_S4096x4x49x49_S4096x4x49x32_S4096x4x49x32_3_2_2_3_01_01_wf : DotDims.WF S4096x4x49x49 S4096x4x49x32 S4096x4x49x32 [3] [2] [2] [3] [0, 1] [0, 1]
  dot_S4096x49x128_S128x128_S4096x49x128_2_1_01_0_n_n_wf : DotDims.WF S4096x49x128 S128x128 S4096x49x128 [2] [1] [0, 1] [0] [] []

variable [Facts₀]

def dot_S4096x49x128_S384x128_S4096x49x384_2_1_01_0_n_n : DotDims S4096x49x128 S384x128 S4096x49x384 where
  lhsContracting := [2]
  rhsContracting := [1]
  lhsNonContracting := [0, 1]
  rhsNonContracting := [0]
  lhsBatch := []
  rhsBatch := []
  wf := dot_S4096x49x128_S384x128_S4096x49x384_2_1_01_0_n_n_wf
def dot_S4096x4x49x32_S4096x4x49x32_S4096x4x49x49_3_3_2_2_01_01 : DotDims S4096x4x49x32 S4096x4x49x32 S4096x4x49x49 where
  lhsContracting := [3]
  rhsContracting := [3]
  lhsNonContracting := [2]
  rhsNonContracting := [2]
  lhsBatch := [0, 1]
  rhsBatch := [0, 1]
  wf := dot_S4096x4x49x32_S4096x4x49x32_S4096x4x49x49_3_3_2_2_01_01_wf
def gather_S169x4_S2401x1_S2401x4_1_0_n_n_0_1_14 : GatherDims S169x4 S2401x1 S2401x4 where
  offsetDims := [1]
  collapsedSliceDims := [0]
  operandBatchingDims := []
  startIndicesBatchingDims := []
  startIndexMap := [0]
  indexVectorDim := 1
  sliceSizes := ![1, 4]
  wf := gather_S169x4_S2401x1_S2401x4_1_0_n_n_0_1_14_wf
def dot_S4096x4x49x49_S4096x4x49x32_S4096x4x49x32_3_2_2_3_01_01 : DotDims S4096x4x49x49 S4096x4x49x32 S4096x4x49x32 where
  lhsContracting := [3]
  rhsContracting := [2]
  lhsNonContracting := [2]
  rhsNonContracting := [3]
  lhsBatch := [0, 1]
  rhsBatch := [0, 1]
  wf := dot_S4096x4x49x49_S4096x4x49x32_S4096x4x49x32_3_2_2_3_01_01_wf
def dot_S4096x49x128_S128x128_S4096x49x128_2_1_01_0_n_n : DotDims S4096x49x128 S128x128 S4096x49x128 where
  lhsContracting := [2]
  rhsContracting := [1]
  lhsNonContracting := [0, 1]
  rhsNonContracting := [0]
  lhsBatch := []
  rhsBatch := []
  wf := dot_S4096x49x128_S128x128_S4096x49x128_2_1_01_0_n_n_wf

class Facts : Prop extends Facts₀ where

variable [Facts]
-- ==== Proof.Spec.lean ====
/-
  Windowed self-attention with a relative-position bias, on ONE window of 49 tokens with 128 channels,
  as a function on the extended reals.

  A window `x : 49 × 128` is projected to `Q = x · Wqkvᵀ + bqkv : 49 × 384`; the 384 channels are three
  groups of 128 (queries, keys, values), each group four heads of 32.  For one head, with query rows `q`,
  key rows `k`, value rows `v` (each 49 × 32) and the head's bias `β : 49 × 49`:

      score n m = Σ_e (q n e · σ) · k m e + β n m                     (σ the scale, kept as its f32 word)
      soft  n m = exp (score n m − μ n) / Σ_m' exp (score n m' − μ n)   (μ n = max(−∞, max_m score n m))
      head  n d = Σ_m soft n m · v m d

  The four heads side by side give `A : 49 × 128` (channel `c` is head `c / 32`, lane `c % 32`), and the
  result is `A · Wprojᵀ + bproj`.  Nothing here needs the entries to be finite: both programs compute this
  very expression, sums over the same finite index sets, only laid out differently.
-/
import Idealize.ShloMosaic.PureOps.Ideal

noncomputable section

namespace Cert.WinAttn

open Idealize.ShloMosaic

/-- The word of −∞ the row maximum starts from. -/
def NEG : EReal := Ideal.ofBits .f32 0xFF800000#32

/-- The scale both programs multiply the queries by: the same f32 word on both sides, never evaluated. -/
def SC : EReal := Ideal.ofBits .f32 0x3E3504F3#32

/-- The maximum of a row of 49 scores, folded from −∞ and met with −∞ once more (as `jax.nn.softmax` writes it). -/
def rowMax (s : Fin 49 → EReal) : EReal := max NEG ((Finset.univ : Finset (Fin 49)).fold max NEG s)

/-- The softmax weight of column `m` in a row of scores. -/
def soft (s : Fin 49 → EReal) (m : Fin 49) : EReal :=
  Ideal.div (Ideal.exp (s m - rowMax s)) (∑ m' : Fin 49, Ideal.exp (s m' - rowMax s))

/-- The score of query token `n` against key token `m` in one head. -/
def score (q k : Fin 49 → Fin 32 → EReal) (β : Fin 49 → Fin 49 → EReal) (n m : Fin 49) : EReal :=
  (∑ e : Fin 32, q n e * SC * k m e) + β n m

/-- One head's output at token `n`, lane `d`. -/
def head (q k v : Fin 49 → Fin 32 → EReal) (β : Fin 49 → Fin 49 → EReal) (n : Fin 49) (d : Fin 32) : EReal :=
  ∑ m : Fin 49, soft (score q k β n) m * v m d

/-- The fused query/key/value projection of a window. -/
def qkv (x : Fin 49 → Fin 128 → EReal) (w : Fin 384 → Fin 128 → EReal) (b : Fin 384 → EReal)
    (n : Fin 49) (o : Fin 384) : EReal :=
  (∑ c : Fin 128, x n c * w o c) + b o

/-- Thirty-two consecutive channels of the projection, from channel `base`. -/
def lanes (Q : Fin 49 → Fin 384 → EReal) (base : ℕ) (hb : base + 32 ≤ 384) : Fin 49 → Fin 32 → EReal :=
  fun n e => Q n ⟨base + e.val, by have := e.isLt; omega⟩

/-- Head `h` of a window's projection `Q`: queries from channel 32h, keys from 128 + 32h, values from 256 + 32h. -/
def headOf (Q : Fin 49 → Fin 384 → EReal) (β : Fin 4 → Fin 49 → Fin 49 → EReal) (h : Fin 4) :
    Fin 49 → Fin 32 → EReal :=
  head (lanes Q (32 * h.val) (by have := h.isLt; omega)) (lanes Q (128 + 32 * h.val) (by have := h.isLt; omega))
    (lanes Q (256 + 32 * h.val) (by have := h.isLt; omega)) (β h)

/-- The four heads side by side: channel `c` is lane `c % 32` of head `c / 32`. -/
def heads (Q : Fin 49 → Fin 384 → EReal) (β : Fin 4 → Fin 49 → Fin 49 → EReal) (n : Fin 49) (c : Fin 128) : EReal :=
  headOf Q β ⟨c.val / 32, by have := c.isLt; omega⟩ n ⟨c.val % 32, Nat.mod_lt _ (by decide)⟩

/-- The whole layer on one window. -/
def out (x : Fin 49 → Fin 128 → EReal) (w : Fin 384 → Fin 128 → EReal) (b : Fin 384 → EReal)
    (pw : Fin 128 → Fin 128 → EReal) (pb : Fin 128 → EReal) (β : Fin 4 → Fin 49 → Fin 49 → EReal)
    (n : Fin 49) (o : Fin 128) : EReal :=
  (∑ c : Fin 128, heads (qkv x w b) β n c * pw o c) + pb o

end Cert.WinAttn

end
-- ==== Proof.Layer.lean ====
/-
  The layer on all 4096 windows as ONE function of the six arrays it reads: the activations [4096, 49, 128],
  the fused projection's weights [384, 128] and bias [384], the output projection's weights [128, 128] and bias
  [128], and the four heads' position biases [4, 49, 49].  Entry (B, n, o) is `WinAttn.out` of window B's rows:
  windows do not interact.
-/
import proofs.«157250_j5677946766063_1_alg».proof.Proof.Spec
import Idealize.ShloMosaic.Lib.ValueIdx

noncomputable section

namespace Cert.WinAttn

open Idealize.ShloMosaic Idealize.ShloMosaic.ValueIdx

def layer (x : (⟨3, ![4096, 49, 128]⟩ : Shape).Idx → EReal) (w : (⟨2, ![384, 128]⟩ : Shape).Idx → EReal)
    (b : (⟨1, ![384]⟩ : Shape).Idx → EReal) (pw : (⟨2, ![128, 128]⟩ : Shape).Idx → EReal)
    (pb : (⟨1, ![128]⟩ : Shape).Idx → EReal) (β : (⟨3, ![4, 49, 49]⟩ : Shape).Idx → EReal) :
    (⟨3, ![4096, 49, 128]⟩ : Shape).Idx → EReal :=
  fun i => out (fun n c => x (ix3 (i 0) n c)) (fun o c => w (ix2 o c)) (fun o => b (ix1 o))
    (fun o c => pw (ix2 o c)) (fun o => pb (ix1 o)) (fun h n m => β (ix3 h n m)) (i 1) (i 2)

end Cert.WinAttn

end
-- ==== Proof.KernelDots.lean ====
/-
  The kernel's four matrix products, read at an index on the extended reals.

  A product into a zero accumulator is the sum over the contracted axis of the operands' products.  The
  projections are plain (rows × K)·(K × columns); the two attention products carry the window as a batch axis:
  scores contract the 32 lanes of both operands (q · kᵀ), the weighted sum contracts the 49 key tokens.
-/
import proofs.«157250_j5677946766063_1_alg».proof.Proof.Gen.KernelIdeal.Skeleton
import Idealize.ShloMosaic.Lib.ValueIdx
import Idealize.ShloMosaic.PureOps.Ideal.Laws

noncomputable section

namespace Cert.KernelIdeal.Attn

open Cert.KernelIdeal Cert.KernelIdeal.Gen Idealize.ShloMosaic Idealize.ShloMosaic.ValueIdx

/-! ## q · kᵀ within a window: contract the 32 lanes -/

theorem scores_lhs (i : S64x49x49.Idx) (k : Fin 32) :
    dot_S64x49x32_S64x49x32_S64x49x49_2_2_1_1_0_0.lhsIdx i ((contrEquiv1 dot_S64x49x32_S64x49x32_S64x49x49_2_2_1_1_0_0 32 rfl rfl).symm k) = ix3 (i 0) (i 1) k := by
  have hk := contrEquiv1_symm_val dot_S64x49x32_S64x49x32_S64x49x49_2_2_1_1_0_0 32 rfl rfl k
  funext a; apply Fin.ext
  match a with
  | ⟨0, _⟩ =>
    show (dot_S64x49x32_S64x49x32_S64x49x49_2_2_1_1_0_0.lhsIdx i _ 0).val = _
    unfold DotDims.lhsIdx
    rw [dif_pos (show (0 : Fin S64x49x32.rank) ∈ dot_S64x49x32_S64x49x32_S64x49x49_2_2_1_1_0_0.lhsBatch by decide)]
    rfl
  | ⟨1, _⟩ =>
    show (dot_S64x49x32_S64x49x32_S64x49x49_2_2_1_1_0_0.lhsIdx i _ 1).val = _
    unfold DotDims.lhsIdx
    rw [dif_neg (show ¬(1 : Fin S64x49x32.rank) ∈ dot_S64x49x32_S64x49x32_S64x49x49_2_2_1_1_0_0.lhsBatch by decide), dif_pos (show (1 : Fin S64x49x32.rank) ∈ dot_S64x49x32_S64x49x32_S64x49x49_2_2_1_1_0_0.lhsNonContracting by decide)]
    rfl
  | ⟨2, _⟩ => exact (dot_S64x49x32_S64x49x32_S64x49x49_2_2_1_1_0_0.lhsIdx_val_of_single rfl i _).trans hk

theorem scores_rhs (i : S64x49x49.Idx) (k : Fin 32) :
    dot_S64x49x32_S64x49x32_S64x49x49_2_2_1_1_0_0.rhsIdx i ((contrEquiv1 dot_S64x49x32_S64x49x32_S64x49x49_2_2_1_1_0_0 32 rfl rfl).symm k) = ix3 (i 0) (i 2) k := by
  have hk := contrEquiv1_symm_val dot_S64x49x32_S64x49x32_S64x49x49_2_2_1_1_0_0 32 rfl rfl k
  funext a; apply Fin.ext
  match a with
  | ⟨0, _⟩ =>
    show (dot_S64x49x32_S64x49x32_S64x49x49_2_2_1_1_0_0.rhsIdx i _ 0).val = _
    unfold DotDims.rhsIdx
    rw [dif_pos (show (0 : Fin S64x49x32.rank) ∈ dot_S64x49x32_S64x49x32_S64x49x49_2_2_1_1_0_0.rhsBatch by decide)]
    rfl
  | ⟨1, _⟩ =>
    show (dot_S64x49x32_S64x49x32_S64x49x49_2_2_1_1_0_0.rhsIdx i _ 1).val = _
    unfold DotDims.rhsIdx
    rw [dif_neg (show ¬(1 : Fin S64x49x32.rank) ∈ dot_S64x49x32_S64x49x32_S64x49x49_2_2_1_1_0_0.rhsBatch by decide), dif_pos (show (1 : Fin S64x49x32.rank) ∈ dot_S64x49x32_S64x49x32_S64x49x49_2_2_1_1_0_0.rhsNonContracting by decide)]
    rfl
  | ⟨2, _⟩ => exact (dot_S64x49x32_S64x49x32_S64x49x49_2_2_1_1_0_0.rhsIdx_val_of_single rfl i _).trans hk

/-- Scores of a window: entry (n, m) of window b is Σ_e l(b, n, e) · r(b, m, e). -/
theorem scores_apply {φ₁ φ₂ : FTy} (l : FVec Ideal S64x49x32 φ₁) (r : FVec Ideal S64x49x32 φ₂) (b : Fin 64) (n m : Fin 49) :
    matmul dot_S64x49x32_S64x49x32_S64x49x49_2_2_1_1_0_0 none l r (constant S64x49x49 .f32 0x00000000#32) (ix3 b n m)
      = ∑ e : Fin 32, l (ix3 b n e) * r (ix3 b m e) := by
  simp only [matmul]
  rw [Ideal.matmul_constant_zero_apply, ← Equiv.sum_comp (contrEquiv1 dot_S64x49x32_S64x49x32_S64x49x49_2_2_1_1_0_0 32 rfl rfl).symm]
  refine Finset.sum_congr rfl fun k _ => ?_
  rw [scores_lhs, scores_rhs]
  rfl

/-! ## weights · values within a window: contract the 49 key tokens -/

theorem mix_lhs (i : S64x49x32.Idx) (k : Fin 49) :
    dot_S64x49x49_S64x49x32_S64x49x32_2_1_1_2_0_0.lhsIdx i ((contrEquiv1 dot_S64x49x49_S64x49x32_S64x49x32_2_1_1_2_0_0 49 rfl rfl).symm k) = ix3 (i 0) (i 1) k := by
  have hk := contrEquiv1_symm_val dot_S64x49x49_S64x49x32_S64x49x32_2_1_1_2_0_0 49 rfl rfl k
  funext a; apply Fin.ext
  match a with
  | ⟨0, _⟩ =>
    show (dot_S64x49x49_S64x49x32_S64x49x32_2_1_1_2_0_0.lhsIdx i _ 0).val = _
    unfold DotDims.lhsIdx
    rw [dif_pos (show (0 : Fin S64x49x49.rank) ∈ dot_S64x49x49_S64x49x32_S64x49x32_2_1_1_2_0_0.lhsBatch by decide)]
    rfl
  | ⟨1, _⟩ =>
    show (dot_S64x49x49_S64x49x32_S64x49x32_2_1_1_2_0_0.lhsIdx i _ 1).val = _
    unfold DotDims.lhsIdx
    rw [dif_neg (show ¬(1 : Fin S64x49x49.rank) ∈ dot_S64x49x49_S64x49x32_S64x49x32_2_1_1_2_0_0.lhsBatch by decide), dif_pos (show (1 : Fin S64x49x49.rank) ∈ dot_S64x49x49_S64x49x32_S64x49x32_2_1_1_2_0_0.lhsNonContracting by decide)]
    rfl
  | ⟨2, _⟩ => exact (dot_S64x49x49_S64x49x32_S64x49x32_2_1_1_2_0_0.lhsIdx_val_of_single rfl i _).trans hk

theorem mix_rhs (i : S64x49x32.Idx) (k : Fin 49) :
    dot_S64x49x49_S64x49x32_S64x49x32_2_1_1_2_0_0.rhsIdx i ((contrEquiv1 dot_S64x49x49_S64x49x32_S64x49x32_2_1_1_2_0_0 49 rfl rfl).symm k) = ix3 (i 0) k (i 2) := by
  have hk := contrEquiv1_symm_val dot_S64x49x49_S64x49x32_S64x49x32_2_1_1_2_0_0 49 rfl rfl k
  funext a; apply Fin.ext
  match a with
  | ⟨0, _⟩ =>
    show (dot_S64x49x49_S64x49x32_S64x49x32_2_1_1_2_0_0.rhsIdx i _ 0).val = _
    unfold DotDims.rhsIdx
    rw [dif_pos (show (0 : Fin S64x49x32.rank) ∈ dot_S64x49x49_S64x49x32_S64x49x32_2_1_1_2_0_0.rhsBatch by decide)]
    rfl
  | ⟨1, _⟩ => exact (dot_S64x49x49_S64x49x32_S64x49x32_2_1_1_2_0_0.rhsIdx_val_of_single rfl i _).trans hk
  | ⟨2, _⟩ =>
    show (dot_S64x49x49_S64x49x32_S64x49x32_2_1_1_2_0_0.rhsIdx i _ 2).val = _
    unfold DotDims.rhsIdx
    rw [dif_neg (show ¬(2 : Fin S64x49x32.rank) ∈ dot_S64x49x49_S64x49x32_S64x49x32_2_1_1_2_0_0.rhsBatch by decide), dif_pos (show (2 : Fin S64x49x32.rank) ∈ dot_S64x49x49_S64x49x32_S64x49x32_2_1_1_2_0_0.rhsNonContracting by decide)]
    rfl

/-- The weighted sum of a window's value rows: entry (n, d) of window b is Σ_m l(b, n, m) · r(b, m, d). -/
theorem mix_apply {φ₁ φ₂ : FTy} (l : FVec Ideal S64x49x49 φ₁) (r : FVec Ideal S64x49x32 φ₂) (b : Fin 64) (n : Fin 49) (d : Fin 32) :
    matmul dot_S64x49x49_S64x49x32_S64x49x32_2_1_1_2_0_0 none l r (constant S64x49x32 .f32 0x00000000#32) (ix3 b n d)
      = ∑ m : Fin 49, l (ix3 b n m) * r (ix3 b m d) := by
  simp only [matmul]
  rw [Ideal.matmul_constant_zero_apply, ← Equiv.sum_comp (contrEquiv1 dot_S64x49x49_S64x49x32_S64x49x32_2_1_1_2_0_0 49 rfl rfl).symm]
  refine Finset.sum_congr rfl fun k _ => ?_
  rw [mix_lhs, mix_rhs]
  rfl

/-! ## The two projections: plain products over 128 input channels -/

theorem qkvdot_lhs (i : S3136x384.Idx) (k : Fin 128) :
    dot_S3136x128_S128x384_S3136x384_1_0_0_1_n_n.lhsIdx i ((contrEquiv1 dot_S3136x128_S128x384_S3136x384_1_0_0_1_n_n 128 rfl rfl).symm k) = ix2 (i 0) k := by
  have hk := contrEquiv1_symm_val dot_S3136x128_S128x384_S3136x384_1_0_0_1_n_n 128 rfl rfl k
  funext a; apply Fin.ext
  match a with
  | ⟨0, _⟩ =>
    show (dot_S3136x128_S128x384_S3136x384_1_0_0_1_n_n.lhsIdx i _ 0).val = _
    unfold DotDims.lhsIdx
    rw [dif_neg (show ¬(0 : Fin S3136x128.rank) ∈ dot_S3136x128_S128x384_S3136x384_1_0_0_1_n_n.lhsBatch by decide), dif_pos (show (0 : Fin S3136x128.rank) ∈ dot_S3136x128_S128x384_S3136x384_1_0_0_1_n_n.lhsNonContracting by decide)]
    rfl
  | ⟨1, _⟩ => exact (dot_S3136x128_S128x384_S3136x384_1_0_0_1_n_n.lhsIdx_val_of_single rfl i _).trans hk

theorem qkvdot_rhs (i : S3136x384.Idx) (k : Fin 128) :
    dot_S3136x128_S128x384_S3136x384_1_0_0_1_n_n.rhsIdx i ((contrEquiv1 dot_S3136x128_S128x384_S3136x384_1_0_0_1_n_n 128 rfl rfl).symm k) = ix2 k (i 1) := by
  have hk := contrEquiv1_symm_val dot_S3136x128_S128x384_S3136x384_1_0_0_1_n_n 128 rfl rfl k
  funext a; apply Fin.ext
  match a with
  | ⟨0, _⟩ => exact (dot_S3136x128_S128x384_S3136x384_1_0_0_1_n_n.rhsIdx_val_of_single rfl i _).trans hk
  | ⟨1, _⟩ =>
    show (dot_S3136x128_S128x384_S3136x384_1_0_0_1_n_n.rhsIdx i _ 1).val = _
    unfold DotDims.rhsIdx
    rw [dif_neg (show ¬(1 : Fin S128x384.rank) ∈ dot_S3136x128_S128x384_S3136x384_1_0_0_1_n_n.rhsBatch by decide), dif_pos (show (1 : Fin S128x384.rank) ∈ dot_S3136x128_S128x384_S3136x384_1_0_0_1_n_n.rhsNonContracting by decide)]
    rfl

/-- The fused projection: entry (r, o) is Σ_c l(r, c) · r(c, o). -/
theorem qkvdot_apply {φ₁ φ₂ : FTy} (l : FVec Ideal S3136x128 φ₁) (r : FVec Ideal S128x384 φ₂) (p : Fin 3136) (o : Fin 384) :
    matmul dot_S3136x128_S128x384_S3136x384_1_0_0_1_n_n none l r (constant S3136x384 .f32 0x00000000#32) (ix2 p o)
      = ∑ c : Fin 128, l (ix2 p c) * r (ix2 c o) := by
  simp only [matmul]
  rw [Ideal.matmul_constant_zero_apply, ← Equiv.sum_comp (contrEquiv1 dot_S3136x128_S128x384_S3136x384_1_0_0_1_n_n 128 rfl rfl).symm]
  refine Finset.sum_congr rfl fun k _ => ?_
  rw [qkvdot_lhs, qkvdot_rhs]
  rfl

theorem projdot_lhs (i : S3136x128.Idx) (k : Fin 128) :
    dot_S3136x128_S128x128_S3136x128_1_0_0_1_n_n.lhsIdx i ((contrEquiv1 dot_S3136x128_S128x128_S3136x128_1_0_0_1_n_n 128 rfl rfl).symm k) = ix2 (i 0) k := by
  have hk := contrEquiv1_symm_val dot_S3136x128_S128x128_S3136x128_1_0_0_1_n_n 128 rfl rfl k
  funext a; apply Fin.ext
  match a with
  | ⟨0, _⟩ =>
    show (dot_S3136x128_S128x128_S3136x128_1_0_0_1_n_n.lhsIdx i _ 0).val = _
    unfold DotDims.lhsIdx
    rw [dif_neg (show ¬(0 : Fin S3136x128.rank) ∈ dot_S3136x128_S128x128_S3136x128_1_0_0_1_n_n.lhsBatch by decide), dif_pos (show (0 : Fin S3136x128.rank) ∈ dot_S3136x128_S128x128_S3136x128_1_0_0_1_n_n.lhsNonContracting by decide)]
    rfl
  | ⟨1, _⟩ => exact (dot_S3136x128_S128x128_S3136x128_1_0_0_1_n_n.lhsIdx_val_of_single rfl i _).trans hk

theorem projdot_rhs (i : S3136x128.Idx) (k : Fin 128) :
    dot_S3136x128_S128x128_S3136x128_1_0_0_1_n_n.rhsIdx i ((contrEquiv1 dot_S3136x128_S128x128_S3136x128_1_0_0_1_n_n 128 rfl rfl).symm k) = ix2 k (i 1) := by
  have hk := contrEquiv1_symm_val dot_S3136x128_S128x128_S3136x128_1_0_0_1_n_n 128 rfl rfl k
  funext a; apply Fin.ext
  match a with
  | ⟨0, _⟩ => exact (dot_S3136x128_S128x128_S3136x128_1_0_0_1_n_n.rhsIdx_val_of_single rfl i _).trans hk
  | ⟨1, _⟩ =>
    show (dot_S3136x128_S128x128_S3136x128_1_0_0_1_n_n.rhsIdx i _ 1).val = _
    unfold DotDims.rhsIdx
    rw [dif_neg (show ¬(1 : Fin S128x128.rank) ∈ dot_S3136x128_S128x128_S3136x128_1_0_0_1_n_n.rhsBatch by decide), dif_pos (show (1 : Fin S128x128.rank) ∈ dot_S3136x128_S128x128_S3136x128_1_0_0_1_n_n.rhsNonContracting by decide)]
    rfl

/-- The output projection: entry (r, o) is Σ_c l(r, c) · r(c, o). -/
theorem projdot_apply {φ₁ φ₂ : FTy} (l : FVec Ideal S3136x128 φ₁) (r : FVec Ideal S128x128 φ₂) (p : Fin 3136) (o : Fin 128) :
    matmul dot_S3136x128_S128x128_S3136x128_1_0_0_1_n_n none l r (constant S3136x128 .f32 0x00000000#32) (ix2 p o)
      = ∑ c : Fin 128, l (ix2 p c) * r (ix2 c o) := by
  simp only [matmul]
  rw [Ideal.matmul_constant_zero_apply, ← Equiv.sum_comp (contrEquiv1 dot_S3136x128_S128x128_S3136x128_1_0_0_1_n_n 128 rfl rfl).symm]
  refine Finset.sum_congr rfl fun k _ => ?_
  rw [projdot_lhs, projdot_rhs]
  rfl

end Cert.KernelIdeal.Attn

end
-- ==== Proof.KernelLayout.lean ====
/-
  The kernel's layout operations and row reductions, read at an index.

  A block holds 64 windows of 49 tokens; the projections see it as 3136 = 64 · 49 rows, row `b · 49 + n` being
  token `n` of window `b`.  A slice along the channel axis shifts the channel; the head's bias is one 49 × 49
  matrix shared by every window; a per-row statistic (maximum, sum) is put back over the 49 columns of its row;
  the four heads' outputs are laid side by side, 32 channels each.
-/
import proofs.«157250_j5677946766063_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Attn

open Cert.KernelIdeal Cert.KernelIdeal.Gen Idealize.ShloMosaic Idealize.ShloMosaic.ValueIdx

variable {α : Type}

/-- Token `n` of window `b` as a row of the flattened block. -/
def row (b : Fin 64) (n : Fin 49) : Fin 3136 := ⟨b.val * 49 + n.val, by have := b.isLt; have := n.isLt; omega⟩

/-! ## Rows flattened and restored -/

theorem flatten128_apply (v : S64x49x128.Idx → α) (h : S64x49x128.ShapeCasts S3136x128) (b : Fin 64) (n : Fin 49) (c : Fin 128) :
    shapeCast S3136x128 v h (ix2 (row b n) c) = v (ix3 b n c) :=
  shapeCast_apply v h _ _ (by rw [Shape.rowMajor_val_three, Shape.rowMajor_val_two]; rfl)

theorem unflatten384_apply (v : S3136x384.Idx → α) (h : S3136x384.ShapeCasts S64x49x384) (b : Fin 64) (n : Fin 49) (o : Fin 384) :
    shapeCast S64x49x384 v h (ix3 b n o) = v (ix2 (row b n) o) :=
  shapeCast_apply v h _ _ (by rw [Shape.rowMajor_val_three, Shape.rowMajor_val_two]; rfl)

theorem unflatten128_apply (v : S3136x128.Idx → α) (h : S3136x128.ShapeCasts S64x49x128) (b : Fin 64) (n : Fin 49) (o : Fin 128) :
    shapeCast S64x49x128 v h (ix3 b n o) = v (ix2 (row b n) o) :=
  shapeCast_apply v h _ _ (by rw [Shape.rowMajor_val_three, Shape.rowMajor_val_two]; rfl)

/-! ## A vector of per-channel offsets added to every row -/

theorem rowvec384_apply (v : S384.Idx → α) (h1 : S384.ShapeCasts S1x384) (h2 : S1x384.Broadcasts S3136x384) (p : Fin 3136) (o : Fin 384) :
    broadcastTo S3136x384 (shapeCast S1x384 v h1) h2 (ix2 p o) = v (ix1 o) :=
  (broadcastTo_1b_ab_apply _ h2 p o).trans (shapeCast_a_1a_apply v h1 0 o)

theorem rowvec128_apply (v : S128.Idx → α) (h1 : S128.ShapeCasts S1x128) (h2 : S1x128.Broadcasts S3136x128) (p : Fin 3136) (o : Fin 128) :
    broadcastTo S3136x128 (shapeCast S1x128 v h1) h2 (ix2 p o) = v (ix1 o) :=
  (broadcastTo_1b_ab_apply _ h2 p o).trans (shapeCast_a_1a_apply v h1 0 o)

/-! ## Slices along the channel axis -/

theorem slice384_apply (off : ℕ) (v : S64x49x384.Idx → α) (h : S64x49x384.Slices ![0, 0, off] S64x49x128) (hoff : off + 128 ≤ 384)
    (b : Fin 64) (n : Fin 49) (j : Fin 128) :
    extractStridedSlice S64x49x128 ![0, 0, off] v h (ix3 b n j) = v (ix3 b n ⟨off + j.val, by have := j.isLt; omega⟩) :=
  extractStridedSlice_apply _ v h _ _ fun a => match a with
    | ⟨0, _⟩ => by show b.val = 0 + b.val; omega
    | ⟨1, _⟩ => by show n.val = 0 + n.val; omega
    | ⟨2, _⟩ => by show off + j.val = off + j.val; rfl

theorem slice128_apply (off : ℕ) (v : S64x49x128.Idx → α) (h : S64x49x128.Slices ![0, 0, off] S64x49x32) (hoff : off + 32 ≤ 128)
    (b : Fin 64) (n : Fin 49) (e : Fin 32) :
    extractStridedSlice S64x49x32 ![0, 0, off] v h (ix3 b n e) = v (ix3 b n ⟨off + e.val, by have := e.isLt; omega⟩) :=
  extractStridedSlice_apply _ v h _ _ fun a => match a with
    | ⟨0, _⟩ => by show b.val = 0 + b.val; omega
    | ⟨1, _⟩ => by show n.val = 0 + n.val; omega
    | ⟨2, _⟩ => by show off + e.val = off + e.val; rfl

/-! ## One head's bias over every window, and a row statistic over its row -/

theorem bias_apply (v : S1x49x49.Idx → α) (h1 : S1x49x49.ShapeCasts S49x49) (h2 : S49x49.ShapeCasts S1x49x49)
    (h3 : S1x49x49.Broadcasts S64x49x49) (b : Fin 64) (n m : Fin 49) :
    broadcastTo S64x49x49 (shapeCast S1x49x49 (shapeCast S49x49 v h1) h2) h3 (ix3 b n m) = v (ix3 (0 : Fin 1) n m) := by
  refine (broadcastTo_apply _ h3 (ix3 b n m) (ix3 (0 : Fin 1) n m) fun a => ?_).trans ?_
  · match a with
    | ⟨0, _⟩ => show 0 = if (1 : ℕ) = 1 then 0 else b.val; rw [if_pos rfl]
    | ⟨1, _⟩ => show n.val = if (49 : ℕ) = 1 then 0 else n.val; rw [if_neg (by decide)]
    | ⟨2, _⟩ => show m.val = if (49 : ℕ) = 1 then 0 else m.val; rw [if_neg (by decide)]
  · exact (shapeCast_ab_1ab_apply _ h2 0 n m).trans (shapeCast_1ab_ab_apply v h1 n m)

theorem keep_apply (v : S64x49x1.Idx → α) (h2 : S64x49x1.Broadcasts S64x49x49) (b : Fin 64) (n m : Fin 49) :
    broadcastTo S64x49x49 v h2 (ix3 b n m) = v (ix3 b n (0 : Fin 1)) := by
  refine broadcastTo_apply _ h2 (ix3 b n m) (ix3 b n (0 : Fin 1)) fun a => ?_
  match a with
  | ⟨0, _⟩ => show b.val = if (64 : ℕ) = 1 then 0 else b.val; rw [if_neg (by decide)]
  | ⟨1, _⟩ => show n.val = if (49 : ℕ) = 1 then 0 else n.val; rw [if_neg (by decide)]
  | ⟨2, _⟩ => show 0 = if (1 : ℕ) = 1 then 0 else m.val; rw [if_pos rfl]

theorem col_apply (v : S64x49.Idx → α) (h1 : S64x49.ShapeCasts S64x49x1) (b : Fin 64) (n : Fin 49) :
    shapeCast S64x49x1 v h1 (ix3 b n (0 : Fin 1)) = v (ix2 b n) :=
  shapeCast_apply v h1 _ _ (by
    rw [Shape.rowMajor_val_two, Shape.rowMajor_val_three]
    show b.val * 49 + n.val = (b.val * 49 + n.val) * 1 + 0
    omega)

/-! ## A row's maximum and sum -/

theorem rowMax_apply (v : FVec Ideal S64x49x49 .f32) (h : S64x49x49.Reduces [2] S64x49) (hφ : FKind.Formats .f32)
    (hacc : (0xFF800000#32 : BitVec 32) = FKind.maximumf.neutral .f32 hφ) (b : Fin 64) (n : Fin 49) :
    multiReduction .maximumf [2] S64x49 v 0xFF800000#32 h hφ hacc (ix2 b n)
      = (Finset.univ : Finset (Fin 49)).fold max (Ideal.ofBits .f32 0xFF800000#32) (fun m => v (ix3 b n m)) := by
  rw [Ideal.multiReduction_maximumf_single]
  show (Finset.univ : Finset (Fin 49)).fold max (Ideal.ofBits .f32 0xFF800000#32) (fun m => v (h.lift (ix2 b n) m)) = _
  congr 1
  funext m
  exact congrArg v (funext fun a => Fin.ext (match a with | ⟨0, _⟩ => rfl | ⟨1, _⟩ => rfl | ⟨2, _⟩ => rfl))

theorem rowSum_apply (v : FVec Ideal S64x49x49 .f32) (h : S64x49x49.Reduces [2] S64x49) (hφ : FKind.Formats .f32)
    (hacc : (0x00000000#32 : BitVec 32) = FKind.add.neutral .f32 hφ) (b : Fin 64) (n : Fin 49) :
    multiReduction .add [2] S64x49 v 0x00000000#32 h hφ hacc (ix2 b n) = ∑ m : Fin 49, v (ix3 b n m) := by
  rw [Ideal.multiReduction_add_single]
  show ∑ m : Fin 49, v (h.lift (ix2 b n) m) = _
  refine Finset.sum_congr rfl fun m _ => ?_
  exact congrArg v (funext fun a => Fin.ext (match a with | ⟨0, _⟩ => rfl | ⟨1, _⟩ => rfl | ⟨2, _⟩ => rfl))

/-! ## Four heads side by side -/

/-- One of four by its number. -/
def pick4 {β : Type} (x0 x1 x2 x3 : β) : Fin 4 → β
  | 0 => x0 | 1 => x1 | 2 => x2 | 3 => x3

theorem cat_apply (x0 x1 x2 x3 : S64x49x32.Idx → α)
    (h : Shape.Concatenates [S64x49x32, S64x49x32, S64x49x32, S64x49x32] S64x49x128 2) (b : Fin 64) (n : Fin 49) (c : Fin 128) :
    concatenate S64x49x128 2 [⟨S64x49x32, x0⟩, ⟨S64x49x32, x1⟩, ⟨S64x49x32, x2⟩, ⟨S64x49x32, x3⟩] h (ix3 b n c)
      = pick4 x0 x1 x2 x3 ⟨c.val / 32, by have := c.isLt; omega⟩ (ix3 b n ⟨c.val % 32, Nat.mod_lt _ (by decide)⟩) := by
  have hc := c.isLt
  let xs : List ((s : Shape) × (s.Idx → α)) := [⟨S64x49x32, x0⟩, ⟨S64x49x32, x1⟩, ⟨S64x49x32, x2⟩, ⟨S64x49x32, x3⟩]
  let j : S64x49x128.Idx := ix3 b n c
  let i : S64x49x32.Idx := ix3 b n (⟨c.val % 32, Nat.mod_lt _ (by decide)⟩ : Fin 32)
  have hr : S64x49x32.rank = S64x49x128.rank := rfl
  have hi : ∀ a : Fin S64x49x32.rank, a.cast hr ≠ (2 : Fin S64x49x128.rank) → (i a).val = (j (a.cast hr)).val := fun a ha =>
    match a, ha with
    | ⟨0, _⟩, _ => rfl
    | ⟨1, _⟩, _ => rfl
    | ⟨2, _⟩, ha => absurd rfl ha
  rcases (by omega : c.val / 32 = 0 ∨ c.val / 32 = 1 ∨ c.val / 32 = 2 ∨ c.val / 32 = 3) with hq | hq | hq | hq
  · rw [show (⟨c.val / 32, by omega⟩ : Fin 4) = 0 from Fin.ext hq]
    exact concatenate_apply_piece (t := S64x49x128) 2 xs h j 0 (by show (0 : ℕ) < 4; omega) S64x49x32 x0 rfl hr 0 rfl i hi
      (by show 0 + c.val % 32 = c.val; omega)
  · rw [show (⟨c.val / 32, by omega⟩ : Fin 4) = 1 from Fin.ext hq]
    exact concatenate_apply_piece (t := S64x49x128) 2 xs h j 1 (by show (1 : ℕ) < 4; omega) S64x49x32 x1 rfl hr 32 rfl i hi
      (by show 32 + c.val % 32 = c.val; omega)
  · rw [show (⟨c.val / 32, by omega⟩ : Fin 4) = 2 from Fin.ext hq]
    exact concatenate_apply_piece (t := S64x49x128) 2 xs h j 2 (by show (2 : ℕ) < 4; omega) S64x49x32 x2 rfl hr 64 rfl i hi
      (by show 64 + c.val % 32 = c.val; omega)
  · rw [show (⟨c.val / 32, by omega⟩ : Fin 4) = 3 from Fin.ext hq]
    exact concatenate_apply_piece (t := S64x49x128) 2 xs h j 3 (by show (3 : ℕ) < 4; omega) S64x49x32 x3 rfl hr 96 rfl i hi
      (by show 96 + c.val % 32 = c.val; omega)

end Cert.KernelIdeal.Attn

end
-- ==== Proof.KernelHead.lean ====
/-
  One attention head as the kernel computes it on a block of 64 windows, and what it is at an index.

  From the three 128-channel groups of the projection (queries `vq`, keys `vk`, values `vv`) and the head's
  49 × 49 bias the kernel cuts 32 lanes at an offset, scales the queries, forms the scores q · kᵀ + bias,
  normalises each row by softmax (maximum, exponentials, their sum, quotient) and takes the weighted sum of the
  value rows.  Read at (window b, token n, lane d) this is `WinAttn.head` of window b's rows; the changes of
  float format in between are the identity on the extended reals.
-/
import proofs.«157250_j5677946766063_1_alg».proof.Proof.Spec
import proofs.«157250_j5677946766063_1_alg».proof.Proof.KernelDots
import proofs.«157250_j5677946766063_1_alg».proof.Proof.KernelLayout

noncomputable section

namespace Cert.KernelIdeal.Attn

open Cert.KernelIdeal Cert.KernelIdeal.Gen Idealize.ShloMosaic Idealize.ShloMosaic.ValueIdx

variable {F : FTy → Type} [FloatOps F]

/-- Scores plus bias of one head, for every window of the block. -/
def scoresK (off : ℕ) (hs : S64x49x128.Slices ![0, 0, off] S64x49x32) (vq vk : FVec F S64x49x128 .f32)
    (vb : Vec F S1x49x49 .f32) : FVec F S64x49x49 .f32 :=
  addf
    (matmul dot_S64x49x32_S64x49x32_S64x49x49_2_2_1_1_0_0 none
      (truncf .bf16 (mulf (extractStridedSlice S64x49x32 ![0, 0, off] vq hs) (broadcast S64x49x32 (Scalar.ofBits .f32 0x3E3504F3#32))) bitsLt_bf16_f32)
      (truncf .bf16 (extractStridedSlice S64x49x32 ![0, 0, off] vk hs) bitsLt_bf16_f32)
      (constant S64x49x49 .f32 0x00000000#32))
    (broadcastTo S64x49x49 (shapeCast S1x49x49 (shapeCast S49x49 vb shapeCasts_S1x49x49_S49x49) shapeCasts_S49x49_S1x49x49) broadcasts_S1x49x49_S64x49x49)

/-- Each row's maximum, kept as a column. -/
def maxK (s : FVec F S64x49x49 .f32) : FVec F S64x49x1 .f32 :=
  shapeCast S64x49x1
    (maximumf (broadcast S64x49 (Scalar.ofBits .f32 0xFF800000#32))
      (multiReduction .maximumf [2] S64x49 s 0xFF800000#32 reduces_S64x49x49_S64x49 (.inl rfl) rfl))
    shapeCasts_S64x49_S64x49x1

/-- The exponentials of a row less its maximum (given as a column). -/
def expK (s : FVec F S64x49x49 .f32) (mx : FVec F S64x49x1 .f32) : FVec F S64x49x49 .f32 :=
  exp (subf s (broadcastTo S64x49x49 mx broadcasts_S64x49x1_S64x49x49))

/-- The exponentials over their row sum. -/
def normK (ex : FVec F S64x49x49 .f32) : FVec F S64x49x49 .f32 :=
  divf ex (broadcastTo S64x49x49
    (shapeCast S64x49x1 (multiReduction .add [2] S64x49 ex 0x00000000#32 reduces_S64x49x49_S64x49 (.inl rfl) rfl) shapeCasts_S64x49_S64x49x1)
    broadcasts_S64x49x1_S64x49x49)

/-- Weights times value rows. -/
def mixK (p : FVec F S64x49x49 .f32) (vv : FVec F S64x49x32 .bf16) : FVec F S64x49x32 .f32 :=
  matmul dot_S64x49x49_S64x49x32_S64x49x32_2_1_1_2_0_0 none (truncf .bf16 p bitsLt_bf16_f32) vv (constant S64x49x32 .f32 0x00000000#32)

/-- One head, start to end. -/
def headK (off : ℕ) (hs : S64x49x128.Slices ![0, 0, off] S64x49x32) (vq vk vv : FVec F S64x49x128 .f32)
    (vb : Vec F S1x49x49 .f32) : FVec F S64x49x32 .f32 :=
  mixK (normK (expK (scoresK off hs vq vk vb) (maxK (scoresK off hs vq vk vb))))
    (truncf .bf16 (extractStridedSlice S64x49x32 ![0, 0, off] vv hs) bitsLt_bf16_f32)

/-! ## At an index, on the extended reals -/

theorem scoresK_apply (off : ℕ) (hs : S64x49x128.Slices ![0, 0, off] S64x49x32) (hoff : off + 32 ≤ 128)
    (vq vk : FVec Ideal S64x49x128 .f32) (vb : Vec Ideal S1x49x49 .f32) (b : Fin 64) (n m : Fin 49) :
    scoresK off hs vq vk vb (ix3 b n m)
      = WinAttn.score (fun n e => vq (ix3 b n ⟨off + e.val, by have := e.isLt; omega⟩))
          (fun m e => vk (ix3 b m ⟨off + e.val, by have := e.isLt; omega⟩)) (fun n m => vb (ix3 (0 : Fin 1) n m)) n m := by
  unfold scoresK WinAttn.score
  show _ + _ = _
  congr 1
  · refine (scores_apply _ _ b n m).trans (Finset.sum_congr rfl fun e _ => ?_)
    show extractStridedSlice S64x49x32 ![0, 0, off] vq hs (ix3 b n e) * Ideal.ofBits .f32 0x3E3504F3#32
        * extractStridedSlice S64x49x32 ![0, 0, off] vk hs (ix3 b m e) = _
    rw [slice128_apply off vq hs hoff, slice128_apply off vk hs hoff]
    rfl
  · exact bias_apply vb _ _ _ b n m

theorem maxK_apply (s : FVec Ideal S64x49x49 .f32) (b : Fin 64) (n : Fin 49) :
    maxK s (ix3 b n (0 : Fin 1)) = WinAttn.rowMax (fun m => s (ix3 b n m)) := by
  unfold maxK
  refine (col_apply _ _ b n).trans ?_
  show max (Ideal.ofBits .f32 0xFF800000#32)
      (multiReduction .maximumf [2] S64x49 s 0xFF800000#32 reduces_S64x49x49_S64x49 (.inl rfl) rfl (ix2 b n)) = _
  exact congrArg (max (Ideal.ofBits .f32 0xFF800000#32)) (rowMax_apply s _ _ _ b n)

theorem expK_apply (s : FVec Ideal S64x49x49 .f32) (mx : FVec Ideal S64x49x1 .f32) (b : Fin 64) (n m : Fin 49) :
    expK s mx (ix3 b n m) = Ideal.exp (s (ix3 b n m) - mx (ix3 b n (0 : Fin 1))) := by
  unfold expK
  show Ideal.exp (s (ix3 b n m) - broadcastTo S64x49x49 mx broadcasts_S64x49x1_S64x49x49 (ix3 b n m)) = _
  rw [keep_apply]

theorem normK_apply (ex : FVec Ideal S64x49x49 .f32) (b : Fin 64) (n m : Fin 49) :
    normK ex (ix3 b n m) = Ideal.div (ex (ix3 b n m)) (∑ m' : Fin 49, ex (ix3 b n m')) := by
  unfold normK
  show Ideal.div (ex (ix3 b n m)) (broadcastTo S64x49x49 _ broadcasts_S64x49x1_S64x49x49 (ix3 b n m)) = _
  rw [keep_apply, col_apply]
  exact congrArg (Ideal.div (ex (ix3 b n m))) (rowSum_apply ex _ _ _ b n)

theorem mixK_apply (p : FVec Ideal S64x49x49 .f32) (vv : FVec Ideal S64x49x32 .bf16) (b : Fin 64) (n : Fin 49) (d : Fin 32) :
    mixK p vv (ix3 b n d) = ∑ m : Fin 49, p (ix3 b n m) * vv (ix3 b m d) := by
  unfold mixK
  exact mix_apply _ _ b n d

/-- The head at (window b, token n, lane d) is the head of window b's query, key and value rows. -/
theorem headK_apply (off : ℕ) (hs : S64x49x128.Slices ![0, 0, off] S64x49x32) (hoff : off + 32 ≤ 128)
    (vq vk vv : FVec Ideal S64x49x128 .f32) (vb : Vec Ideal S1x49x49 .f32) (b : Fin 64) (n : Fin 49) (d : Fin 32) :
    headK off hs vq vk vv vb (ix3 b n d)
      = WinAttn.head (fun n e => vq (ix3 b n ⟨off + e.val, by have := e.isLt; omega⟩))
          (fun m e => vk (ix3 b m ⟨off + e.val, by have := e.isLt; omega⟩))
          (fun m e => vv (ix3 b m ⟨off + e.val, by have := e.isLt; omega⟩))
          (fun n m => vb (ix3 (0 : Fin 1) n m)) n d := by
  unfold headK WinAttn.head
  rw [mixK_apply]
  refine Finset.sum_congr rfl fun m _ => ?_
  congr 1
  · rw [normK_apply]
    unfold WinAttn.soft
    simp only [expK_apply, maxK_apply, scoresK_apply off hs hoff]
  · exact slice128_apply off vv hs hoff b m d

end Cert.KernelIdeal.Attn

end
-- ==== Proof.KernelBlock.lean ====
/-
  What the kernel's body stores for a block of 64 windows, as a function of what it loads, and what that is at an
  index: `WinAttn.out` of window b's 49 × 128 rows, the shared weights and the four heads' biases.

  The body's arithmetic is one long sequence; regrouped it is the fused projection, then four heads (32 lanes
  each at offsets 0, 32, 64, 96 of the query, key and value groups), their outputs side by side, then the
  output projection with its bias.  The regrouping changes no operation, so it holds by unfolding.
-/
import proofs.«157250_j5677946766063_1_alg».proof.Proof.KernelHead

noncomputable section

namespace Cert.KernelIdeal.Attn

open Cert.KernelIdeal Cert.KernelIdeal.Gen Idealize.ShloMosaic Idealize.ShloMosaic.ValueIdx

variable {F : FTy → Type} [FloatOps F]

/-- The value the body stores to the output block, from its nine loads. -/
def blockK (P0 : Vec F S64x49x128 .f32) (P1 : Vec F S384x128 .f32) (P2 : Vec F S384 .f32) (P3 P4 P5 P6 : Vec F S1x49x49 .f32) (P7 : Vec F S128x128 .f32) (P8 : Vec F S128 .f32) : FVec F S64x49x128 .f32 :=
  k0_pay1 (k0_pay12 (k0_pay3 P0 P1 P2) (k0_pay4 P0 P1 P2) (k0_pay5 P0 P1 P2) (k0_pay6 P0 P1 P2 P3)
    (k0_pay8 (k0_pay4 P0 P1 P2) (k0_pay5 P0 P1 P2) (k0_pay7 P0 P1 P2) P4) (k0_pay9 (k0_pay5 P0 P1 P2))
    (k0_pay10 (k0_pay3 P0 P1 P2) (k0_pay4 P0 P1 P2) P5) (k0_pay11 (k0_pay3 P0 P1 P2) (k0_pay4 P0 P1 P2) P5) P6 P7) (k0_pay13 P8)

/-- The output projection of the attended rows, with its bias. -/
def projK (a : FVec F S64x49x128 .f32) (pw : Vec F S128x128 .f32) (pb : Vec F S128 .f32) : FVec F S64x49x128 .f32 :=
  shapeCast S64x49x128
    (addf
      (matmul dot_S3136x128_S128x128_S3136x128_1_0_0_1_n_n none
        (shapeCast S3136x128 (truncf .bf16 a bitsLt_bf16_f32) shapeCasts_S64x49x128_S3136x128)
        (transpose S128x128 [1, 0] (truncf .bf16 pw bitsLt_bf16_f32) transposes_S128x128_p1_0_S128x128)
        (constant S3136x128 .f32 0x00000000#32))
      (broadcastTo S3136x128 (shapeCast S1x128 pb shapeCasts_S128_S1x128) broadcasts_S1x128_S3136x128))
    shapeCasts_S3136x128_S64x49x128

/-- The body regrouped: projection of the four heads laid side by side. -/
theorem blockK_eq (P0 : Vec F S64x49x128 .f32) (P1 : Vec F S384x128 .f32) (P2 : Vec F S384 .f32) (P3 P4 P5 P6 : Vec F S1x49x49 .f32) (P7 : Vec F S128x128 .f32) (P8 : Vec F S128 .f32) :
    blockK P0 P1 P2 P3 P4 P5 P6 P7 P8 = projK (concatenate S64x49x128 2
        [⟨S64x49x32, headK 0 slices_S64x49x128_o0_0_0_S64x49x32 (k0_pay3 P0 P1 P2) (k0_pay4 P0 P1 P2) (k0_pay5 P0 P1 P2) P3⟩,
         ⟨S64x49x32, headK 32 slices_S64x49x128_o0_0_32_S64x49x32 (k0_pay3 P0 P1 P2) (k0_pay4 P0 P1 P2) (k0_pay5 P0 P1 P2) P4⟩,
         ⟨S64x49x32, headK 64 slices_S64x49x128_o0_0_64_S64x49x32 (k0_pay3 P0 P1 P2) (k0_pay4 P0 P1 P2) (k0_pay5 P0 P1 P2) P5⟩,
         ⟨S64x49x32, headK 96 slices_S64x49x128_o0_0_96_S64x49x32 (k0_pay3 P0 P1 P2) (k0_pay4 P0 P1 P2) (k0_pay5 P0 P1 P2) P6⟩]
        concatenates_S64x49x32_S64x49x32_S64x49x32_S64x49x32_S64x49x128_d2) P7 P8 := rfl

/-! ## At an index, on the extended reals -/

theorem projK_apply (a : FVec Ideal S64x49x128 .f32) (pw : Vec Ideal S128x128 .f32) (pb : Vec Ideal S128 .f32)
    (b : Fin 64) (n : Fin 49) (o : Fin 128) :
    projK a pw pb (ix3 b n o) = (∑ c : Fin 128, a (ix3 b n c) * pw (ix2 o c)) + pb (ix1 o) := by
  unfold projK
  refine (unflatten128_apply _ _ b n o).trans ?_
  show _ + _ = _
  congr 1
  · refine (projdot_apply _ _ (row b n) o).trans (Finset.sum_congr rfl fun c _ => ?_)
    congr 1
    · exact flatten128_apply _ _ b n c
    · exact transpose_ix2_apply _ _ c o
  · exact rowvec128_apply pb _ _ (row b n) o

/-- The fused projection at (window b, token n, channel o). -/
theorem pay2_apply (P0 : Vec Ideal S64x49x128 .f32) (P1 : Vec Ideal S384x128 .f32) (P2 : Vec Ideal S384 .f32)
    (b : Fin 64) (n : Fin 49) (o : Fin 384) :
    k0_pay2 P0 P1 P2 (ix3 b n o)
      = WinAttn.qkv (fun n c => P0 (ix3 b n c)) (fun o c => P1 (ix2 o c)) (fun o => P2 (ix1 o)) n o := by
  unfold k0_pay2 WinAttn.qkv
  refine (unflatten384_apply _ _ b n o).trans ?_
  show _ + _ = _
  congr 1
  · refine (qkvdot_apply _ _ (row b n) o).trans (Finset.sum_congr rfl fun c _ => ?_)
    congr 1
    · exact flatten128_apply _ _ b n c
    · exact transpose_ix2_apply _ _ c o
  · exact rowvec384_apply P2 _ _ (row b n) o

/-- A 128-channel group of the projection (queries from 0, keys from 128, values from 256). -/
theorem group_apply (g : ℕ) (hs : S64x49x384.Slices ![0, 0, g] S64x49x128) (hg : g + 128 ≤ 384)
    (P0 : Vec Ideal S64x49x128 .f32) (P1 : Vec Ideal S384x128 .f32) (P2 : Vec Ideal S384 .f32)
    (b : Fin 64) (n : Fin 49) (j : Fin 128) :
    extractStridedSlice S64x49x128 ![0, 0, g] (k0_pay2 P0 P1 P2) hs (ix3 b n j)
      = WinAttn.qkv (fun n c => P0 (ix3 b n c)) (fun o c => P1 (ix2 o c)) (fun o => P2 (ix1 o)) n
          ⟨g + j.val, by have := j.isLt; omega⟩ :=
  (slice384_apply g _ hs hg b n j).trans (pay2_apply P0 P1 P2 b n _)

/-- Head `h` of the block at (window b, token n, lane d) is head `h` of window b. -/
theorem headK_headOf (h : Fin 4) (hs : S64x49x128.Slices ![0, 0, 32 * h.val] S64x49x32)
    (P0 : Vec Ideal S64x49x128 .f32) (P1 : Vec Ideal S384x128 .f32) (P2 : Vec Ideal S384 .f32) (vb : Vec Ideal S1x49x49 .f32)
    (β : Fin 4 → Fin 49 → Fin 49 → EReal) (hβ : β h = fun n m => vb (ix3 (0 : Fin 1) n m))
    (b : Fin 64) (n : Fin 49) (d : Fin 32) :
    headK (32 * h.val) hs (k0_pay3 P0 P1 P2) (k0_pay4 P0 P1 P2) (k0_pay5 P0 P1 P2) vb (ix3 b n d)
      = WinAttn.headOf (WinAttn.qkv (fun n c => P0 (ix3 b n c)) (fun o c => P1 (ix2 o c)) (fun o => P2 (ix1 o))) β h n d := by
  have hh := h.isLt
  rw [headK_apply _ hs (by omega)]
  unfold WinAttn.headOf
  rw [hβ]
  congr 1
  · funext n e
    refine (group_apply 0 slices_S64x49x384_o0_0_0_S64x49x128 (by omega) P0 P1 P2 b n _).trans ?_
    exact congrArg _ (Fin.ext (by show 0 + (32 * h.val + e.val) = 32 * h.val + e.val; omega))
  · funext n e
    refine (group_apply 128 slices_S64x49x384_o0_0_128_S64x49x128 (by omega) P0 P1 P2 b n _).trans ?_
    exact congrArg _ (Fin.ext (by show 128 + (32 * h.val + e.val) = 128 + 32 * h.val + e.val; omega))
  · funext n e
    refine (group_apply 256 slices_S64x49x384_o0_0_256_S64x49x128 (by omega) P0 P1 P2 b n _).trans ?_
    exact congrArg _ (Fin.ext (by show 256 + (32 * h.val + e.val) = 256 + 32 * h.val + e.val; omega))

/-- The stored block at (window b, token n, channel o) is the layer on window b. -/
theorem blockK_apply (P0 : Vec Ideal S64x49x128 .f32) (P1 : Vec Ideal S384x128 .f32) (P2 : Vec Ideal S384 .f32) (P3 P4 P5 P6 : Vec Ideal S1x49x49 .f32) (P7 : Vec Ideal S128x128 .f32) (P8 : Vec Ideal S128 .f32) (b : Fin 64) (n : Fin 49) (o : Fin 128) :
    blockK P0 P1 P2 P3 P4 P5 P6 P7 P8 (ix3 b n o)
      = WinAttn.out (fun n c => P0 (ix3 b n c)) (fun o c => P1 (ix2 o c)) (fun o => P2 (ix1 o))
          (fun o c => P7 (ix2 o c)) (fun o => P8 (ix1 o))
          (pick4 (fun n m => P3 (ix3 (0 : Fin 1) n m)) (fun n m => P4 (ix3 (0 : Fin 1) n m))
            (fun n m => P5 (ix3 (0 : Fin 1) n m)) (fun n m => P6 (ix3 (0 : Fin 1) n m))) n o := by
  rw [blockK_eq, projK_apply]
  unfold WinAttn.out
  congr 1
  refine Finset.sum_congr rfl fun c _ => ?_
  congr 1
  rw [cat_apply]
  unfold WinAttn.heads
  have hc := c.isLt
  generalize hq : (⟨c.val / 32, by omega⟩ : Fin 4) = h
  generalize (⟨c.val % 32, Nat.mod_lt _ (by decide)⟩ : Fin 32) = d
  match h with
  | 0 => exact headK_headOf 0 _ P0 P1 P2 P3 _ rfl b n d
  | 1 => exact headK_headOf 1 _ P0 P1 P2 P4 _ rfl b n d
  | 2 => exact headK_headOf 2 _ P0 P1 P2 P5 _ rfl b n d
  | 3 => exact headK_headOf 3 _ P0 P1 P2 P6 _ rfl b n d

end Cert.KernelIdeal.Attn

end
-- ==== Proof.KernelValue.lean ====
/-
  From the blocks to the array: after the kernel's run the result array is the layer applied to the arrays the
  region found.

  Grid point t stages windows 64·t … 64·t + 63 of the activations and writes the same windows of the result; the
  weights, biases and the heads' position biases are staged whole at every point (the four bias loads read planes
  0–3 of the staged [4, 49, 49] array).  So what point t writes back is block t of the layer's result, and the 64
  blocks tile the 4096 windows.
-/
import proofs.«157250_j5677946766063_1_alg».proof.Proof.Layer
import proofs.«157250_j5677946766063_1_alg».proof.Proof.KernelBlock
import proofs.«157250_j5677946766063_1_alg».proof.Proof.Gen.KernelIdeal.Frame
import Idealize.ShloMosaic.Lib.Pipeline.Value

set_option maxRecDepth 16384

noncomputable section

namespace Cert.KernelIdeal.AttnValue

open Cert.KernelIdeal Cert.KernelIdeal.Gen Cert.KernelIdeal.Attn Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The stored block as a block of the layer, over variables -/

/-- If the nine loads are the arrays' entries — the activations' at windows `T·64 + b`, the rest whole, the four
    bias loads planes 0–3 — the stored block at (b, n, o) is the layer at (T·64 + b, n, o). -/
theorem block_layer (P0 : Vec Ideal S64x49x128 .f32) (P1 : Vec Ideal S384x128 .f32) (P2 : Vec Ideal S384 .f32)
    (P3 P4 P5 P6 : Vec Ideal S1x49x49 .f32) (P7 : Vec Ideal S128x128 .f32) (P8 : Vec Ideal S128 .f32)
    (X : S4096x49x128.Idx → EReal) (W : S384x128.Idx → EReal) (BQ : S384.Idx → EReal) (PW : S128x128.Idx → EReal)
    (PB : S128.Idx → EReal) (BI : S4x49x49.Idx → EReal) (T : ℕ) (hT : T < 64)
    (h0 : ∀ (b : Fin 64) (n : Fin 49) (c : Fin 128), P0 (ix3 b n c) = X (ix3 (⟨T * 64 + b.val, by have := b.isLt; omega⟩ : Fin 4096) n c))
    (h1 : ∀ j, P1 j = W j) (h2 : ∀ j, P2 j = BQ j)
    (h3 : ∀ n m : Fin 49, P3 (ix3 (0 : Fin 1) n m) = BI (ix3 (0 : Fin 4) n m))
    (h4 : ∀ n m : Fin 49, P4 (ix3 (0 : Fin 1) n m) = BI (ix3 (1 : Fin 4) n m))
    (h5 : ∀ n m : Fin 49, P5 (ix3 (0 : Fin 1) n m) = BI (ix3 (2 : Fin 4) n m))
    (h6 : ∀ n m : Fin 49, P6 (ix3 (0 : Fin 1) n m) = BI (ix3 (3 : Fin 4) n m))
    (h7 : ∀ j, P7 j = PW j) (h8 : ∀ j, P8 j = PB j) (b : Fin 64) (n : Fin 49) (o : Fin 128) :
    blockK P0 P1 P2 P3 P4 P5 P6 P7 P8 (ix3 b n o)
      = WinAttn.layer X W BQ PW PB BI (ix3 (⟨T * 64 + b.val, by have := b.isLt; omega⟩ : Fin 4096) n o) := by
  rw [blockK_apply]
  unfold WinAttn.layer
  have e0 : (fun (n : Fin 49) (c : Fin 128) => P0 (ix3 b n c))
      = fun n c => X (ix3 (⟨T * 64 + b.val, by have := b.isLt; omega⟩ : Fin 4096) n c) := funext fun n => funext fun c => h0 b n c
  have eβ : pick4 (fun n m => P3 (ix3 (0 : Fin 1) n m)) (fun n m => P4 (ix3 (0 : Fin 1) n m))
      (fun n m => P5 (ix3 (0 : Fin 1) n m)) (fun n m => P6 (ix3 (0 : Fin 1) n m))
      = fun (h : Fin 4) (n m : Fin 49) => BI (ix3 h n m) := funext fun h => match h with
    | 0 => funext fun n => funext fun m => h3 n m
    | 1 => funext fun n => funext fun m => h4 n m
    | 2 => funext fun n => funext fun m => h5 n m
    | 3 => funext fun n => funext fun m => h6 n m
  rw [e0, eβ, funext h1, funext h2, funext h7, funext h8]

/-- The bias load of head `h` reads plane `h` of the staged [4, 49, 49] array. -/
theorem bias_ld0 (X : Vec Ideal S4x49x49 .f32) (n m : Fin 49) : View.ld X r0_3 (ix3 (0 : Fin 1) n m) = X (ix3 (0 : Fin 4) n m) :=
  congrArg X (funext fun a => Fin.ext (match a with | ⟨0, _⟩ => rfl | ⟨1, _⟩ => by show 0 + 1 * n.val = n.val; omega | ⟨2, _⟩ => by show 0 + 1 * m.val = m.val; omega))
theorem bias_ld1 (X : Vec Ideal S4x49x49 .f32) (n m : Fin 49) : View.ld X r0_4 (ix3 (0 : Fin 1) n m) = X (ix3 (1 : Fin 4) n m) :=
  congrArg X (funext fun a => Fin.ext (match a with | ⟨0, _⟩ => rfl | ⟨1, _⟩ => by show 0 + 1 * n.val = n.val; omega | ⟨2, _⟩ => by show 0 + 1 * m.val = m.val; omega))
theorem bias_ld2 (X : Vec Ideal S4x49x49 .f32) (n m : Fin 49) : View.ld X r0_5 (ix3 (0 : Fin 1) n m) = X (ix3 (2 : Fin 4) n m) :=
  congrArg X (funext fun a => Fin.ext (match a with | ⟨0, _⟩ => rfl | ⟨1, _⟩ => by show 0 + 1 * n.val = n.val; omega | ⟨2, _⟩ => by show 0 + 1 * m.val = m.val; omega))
theorem bias_ld3 (X : Vec Ideal S4x49x49 .f32) (n m : Fin 49) : View.ld X r0_6 (ix3 (0 : Fin 1) n m) = X (ix3 (3 : Fin 4) n m) :=
  congrArg X (funext fun a => Fin.ext (match a with | ⟨0, _⟩ => rfl | ⟨1, _⟩ => by show 0 + 1 * n.val = n.val; omega | ⟨2, _⟩ => by show 0 + 1 * m.val = m.val; omega))

/-! ## The windows' index maps over the grid -/

/-- The activations and the result move one block of 64 windows per grid point; every other window stays put. -/
theorem idx_facts : ∀ t : Fin cfg0.N,
    win0_0.index t (0 : Fin 3) = t.val ∧ win0_0.index t (1 : Fin 3) = 0 ∧ win0_0.index t (2 : Fin 3) = 0
    ∧ win0_6.index t (0 : Fin 3) = t.val ∧ win0_6.index t (1 : Fin 3) = 0 ∧ win0_6.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = 0 ∧ win0_5.index t (2 : Fin 3) = 0 :=
  (by decide +kernel : ∀ t : Fin grid0.N, _)

/-- The layer applied to the arrays as the region finds them. -/
abbrev GV (c : Dev nD) : S4096x49x128.Idx → EReal :=
  WinAttn.layer (V m c main_arg0) (V m c main_arg1) (V m c main_arg2) (V m c main_arg3) (V m c main_arg4) (V m c main_v9)

/-- What point `t` writes back is block `t` of the layer's result. -/
theorem flushed_eq (c : Dev nD) (t : Fin cfg0.N) :
    (dats m 0 c).flushed 6 t = ((cfg0.win 6).blk t).view.read (Elt Ideal) (GV m c) := by
  show (cfg0.win 6).cut (grid0.coords t) ((dats m 0 c).after 6 t) = _
  rw [after0_6]
  unfold out0_6
  rw [View.canon_unit_zero hz3]
  simp only [View.ld_unit_zero (S := S64x49x128) hz3, View.ld_unit_zero (S := S384x128) hz2, View.ld_unit_zero (S := S384) hz1,
    View.ld_unit_zero (S := S128x128) hz2, View.ld_unit_zero (S := S128) hz1]
  obtain ⟨a0, a1, a2, g0, g1, g2, b0, b1, c0, d0, d1, e0, f0, f1, f2⟩ := idx_facts t
  have ht : t.val < 64 := t.isLt
  have hb5 : ∀ j : S4x49x49.Idx, iblk m c 5 t j = V m c main_v9 j := fun j => by
    show V m c main_v9 (((cfg0.win 5).blk t).view.emb j) = V m c main_v9 j
    exact congrArg _ (funext fun a => Fin.ext (match a with
      | ⟨0, _⟩ => by show win0_5.index t (0 : Fin 3) * 4 + 1 * (j 0).val = (j 0).val; omega
      | ⟨1, _⟩ => by show win0_5.index t (1 : Fin 3) * 49 + 1 * (j 1).val = (j 1).val; omega
      | ⟨2, _⟩ => by show win0_5.index t (2 : Fin 3) * 49 + 1 * (j 2).val = (j 2).val; omega))
  funext y
  refine (congrArg (blockK _ _ _ _ _ _ _ _ _) (eq_ix3 y)).trans ?_
  refine (block_layer (iblk m c 0 t) (iblk m c 1 t) (iblk m c 2 t) (View.ld (iblk m c 5 t) r0_3) (View.ld (iblk m c 5 t) r0_4)
    (View.ld (iblk m c 5 t) r0_5) (View.ld (iblk m c 5 t) r0_6) (iblk m c 3 t) (iblk m c 4 t)
    (V m c main_arg0) (V m c main_arg1) (V m c main_arg2) (V m c main_arg3) (V m c main_arg4) (V m c main_v9) t.val ht
    ?_ ?_ ?_ ?_ ?_ ?_ ?_ ?_ ?_ (y 0) (y 1) (y 2)).trans ?_
  · intro b n k
    show V m c main_arg0 (((cfg0.win 0).blk t).view.emb (ix3 b n k)) = V m c main_arg0 _
    exact congrArg _ (funext fun a => Fin.ext (match a with
      | ⟨0, _⟩ => by show win0_0.index t (0 : Fin 3) * 64 + 1 * b.val = t.val * 64 + b.val; omega
      | ⟨1, _⟩ => by show win0_0.index t (1 : Fin 3) * 49 + 1 * n.val = n.val; omega
      | ⟨2, _⟩ => by show win0_0.index t (2 : Fin 3) * 128 + 1 * k.val = k.val; omega))
  · intro j
    show V m c main_arg1 (((cfg0.win 1).blk t).view.emb j) = V m c main_arg1 j
    exact congrArg _ (funext fun a => Fin.ext (match a with
      | ⟨0, _⟩ => by show win0_1.index t (0 : Fin 2) * 384 + 1 * (j 0).val = (j 0).val; omega
      | ⟨1, _⟩ => by show win0_1.index t (1 : Fin 2) * 128 + 1 * (j 1).val = (j 1).val; omega))
  · intro j
    show V m c main_arg2 (((cfg0.win 2).blk t).view.emb j) = V m c main_arg2 j
    exact congrArg _ (funext fun a => Fin.ext (match a with
      | ⟨0, _⟩ => by show win0_2.index t (0 : Fin 1) * 384 + 1 * (j 0).val = (j 0).val; omega))
  · intro n k; exact (bias_ld0 _ n k).trans (hb5 _)
  · intro n k; exact (bias_ld1 _ n k).trans (hb5 _)
  · intro n k; exact (bias_ld2 _ n k).trans (hb5 _)
  · intro n k; exact (bias_ld3 _ n k).trans (hb5 _)
  · intro j
    show V m c main_arg3 (((cfg0.win 3).blk t).view.emb j) = V m c main_arg3 j
    exact congrArg _ (funext fun a => Fin.ext (match a with
      | ⟨0, _⟩ => by show win0_3.index t (0 : Fin 2) * 128 + 1 * (j 0).val = (j 0).val; omega
      | ⟨1, _⟩ => by show win0_3.index t (1 : Fin 2) * 128 + 1 * (j 1).val = (j 1).val; omega))
  · intro j
    show V m c main_arg4 (((cfg0.win 4).blk t).view.emb j) = V m c main_arg4 j
    exact congrArg _ (funext fun a => Fin.ext (match a with
      | ⟨0, _⟩ => by show win0_4.index t (0 : Fin 1) * 128 + 1 * (j 0).val = (j 0).val; omega))
  · show GV m c _ = GV m c (((cfg0.win 6).blk t).view.emb y)
    exact congrArg _ (funext fun a => Fin.ext (match a with
      | ⟨0, _⟩ => by show t.val * 64 + (y 0).val = win0_6.index t (0 : Fin 3) * 64 + 1 * (y 0).val; omega
      | ⟨1, _⟩ => by show (y 1).val = win0_6.index t (1 : Fin 3) * 49 + 1 * (y 1).val; omega
      | ⟨2, _⟩ => by show (y 2).val = win0_6.index t (2 : Fin 3) * 128 + 1 * (y 2).val; omega))

/-- An index of the result array is in point `t`'s block iff each coordinate is in the block's range. -/
theorem mem_blk (t : Fin cfg0.N) (i : S4096x49x128.Idx) :
    i ∈ ((cfg0.win 6).blk t).view.set ↔ ∀ a : Fin 3, win0_6.index t a * S64x49x128.size a ≤ (i a).val
      ∧ (i a).val < win0_6.index t a * S64x49x128.size a + S64x49x128.size a := by
  show i ∈ ((View.whole main_v10).slice (win0_6.rect t)).set ↔ _
  rw [View.set_slice_whole, Rect.mem_set_unit]
  exact Iff.rfl

/-- Every window is in some point's block: window B in point B / 64's. -/
theorem cover (i : S4096x49x128.Idx) :
    ∃ t : Fin cfg0.N, (cfg0.win 6).flush t = true ∧ i ∈ ((cfg0.win 6).blk t).view.set := by
  have hi0 : (i 0).val < 4096 := (i 0).isLt
  have hi1 : (i 1).val < 49 := (i 1).isLt
  have hi2 : (i 2).val < 128 := (i 2).isLt
  let t : Fin cfg0.N := ⟨(i 0).val / 64, by show (i 0).val / 64 < 64; omega⟩
  obtain ⟨a0, a1, a2, g0, g1, g2, -⟩ := idx_facts t
  have htv : t.val = (i 0).val / 64 := rfl
  refine ⟨t, flush0_6 t, ?_⟩
  rw [mem_blk]
  intro a
  match a with
  | ⟨0, _⟩ => show win0_6.index t (0 : Fin 3) * 64 ≤ (i 0).val ∧ (i 0).val < win0_6.index t (0 : Fin 3) * 64 + 64; omega
  | ⟨1, _⟩ => show win0_6.index t (1 : Fin 3) * 49 ≤ (i 1).val ∧ (i 1).val < win0_6.index t (1 : Fin 3) * 49 + 49; omega
  | ⟨2, _⟩ => show win0_6.index t (2 : Fin 3) * 128 ≤ (i 2).val ∧ (i 2).val < win0_6.index t (2 : Fin 3) * 128 + 128; omega

/-- The result array after the run. -/
theorem final (c : Dev nD) : (dats m 0 c).arrAt 6 cfg0.N = GV m c :=
  (dats m 0 c).arrAt_eq_of_cover 6 (GV m c) (fun t _ => flushed_eq m c t) cover

/-! ## The run -/

/-- Every weakly fair execution of the kernel ends with the result array at the layer of the arrays the region
    found — the five float arguments as launched, the position biases as the host gathered them — and with every
    argument unchanged. -/
theorem run : θ_run defs (onTc (τ := τ) (main (F := Ideal))) ⟨m, fun _ => 0, ρ⟩ fun r => ∀ c : Dev nD,
      r.2.mem ((c : Thread nD τ).loc main_v10)
        = WinAttn.layer (m ((c : Thread nD τ).loc main_arg0)) (m ((c : Thread nD τ).loc main_arg1)) (m ((c : Thread nD τ).loc main_arg2))
            (m ((c : Thread nD τ).loc main_arg3)) (m ((c : Thread nD τ).loc main_arg4)) (V m c main_v9)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨by
      have e := ((h c).1 6).trans (final m c)
      rw [e]
      show WinAttn.layer (V m c main_arg0) (V m c main_arg1) (V m c main_arg2) (V m c main_arg3) (V m c main_arg4) (V m c main_v9) = _
      rw [V_main_arg0, V_main_arg1, V_main_arg2, V_main_arg3, V_main_arg4],
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.AttnValue

end
-- ==== Proof.RefValue.lean ====
/-
  The reference, read at an index on the extended reals: result entry (window B, token n, channel o) is
  `WinAttn.out` of window B's rows.

  The reference keeps all 4096 windows in one array and the four heads on an axis of their own: the projection
  [4096, 49, 384] is re-read as [4096, 49, 3, 4, 32] (group, head, lane), each group moved to [4096, 4, 49, 32];
  scores, softmax and the weighted sum run per (window, head); the heads' outputs return to [4096, 49, 128]
  with channel 32·head + lane.  Each step reads one operand entry (or a sum over one axis), so the result at an
  index unfolds step by step; what is written here is the arithmetic of the re-indexing.
-/
import proofs.«157250_j5677946766063_1_alg».proof.Proof.Spec
import proofs.«157250_j5677946766063_1_alg».proof.Proof.Gen.ReferenceIdeal.Read
import Idealize.ShloMosaic.Lib.ValueIdx
import Idealize.ShloMosaic.PureOps.Ideal.Laws

noncomputable section

namespace Cert.ReferenceIdeal.RefAttn

open Cert.ReferenceIdeal Cert.ReferenceIdeal.Gen Cert.ReferenceIdeal.Read Idealize.ShloMosaic Idealize.ShloMosaic.ValueIdx

/-! ## The re-indexings' arithmetic -/

theorem idx_main_v6_ix (B : Fin 4096) (n : Fin 49) (h : Fin 4) (e : Fin 32) :
    idx_main_v6 (ix4 B n h e) = ix5 B n (0 : Fin 1) h e := by
  have := B.isLt; have := n.isLt; have := h.isLt; have := e.isLt
  funext a; apply Fin.ext
  match a with
  | ⟨0, _⟩ => show ((((B.val * 49 + n.val) * 4 + h.val) * 32 + e.val) / 6272) = B.val; omega
  | ⟨1, _⟩ => show ((((B.val * 49 + n.val) * 4 + h.val) * 32 + e.val) / 128 % 49) = n.val; omega
  | ⟨2, _⟩ => rfl
  | ⟨3, _⟩ => show ((((B.val * 49 + n.val) * 4 + h.val) * 32 + e.val) / 32 % 4) = h.val; omega
  | ⟨4, _⟩ => show ((((B.val * 49 + n.val) * 4 + h.val) * 32 + e.val) % 32) = e.val; omega

theorem idx_main_v9_ix (B : Fin 4096) (n : Fin 49) (h : Fin 4) (e : Fin 32) :
    idx_main_v9 (ix4 B n h e) = ix5 B n (0 : Fin 1) h e := by
  have := B.isLt; have := n.isLt; have := h.isLt; have := e.isLt
  funext a; apply Fin.ext
  match a with
  | ⟨0, _⟩ => show ((((B.val * 49 + n.val) * 4 + h.val) * 32 + e.val) / 6272) = B.val; omega
  | ⟨1, _⟩ => show ((((B.val * 49 + n.val) * 4 + h.val) * 32 + e.val) / 128 % 49) = n.val; omega
  | ⟨2, _⟩ => rfl
  | ⟨3, _⟩ => show ((((B.val * 49 + n.val) * 4 + h.val) * 32 + e.val) / 32 % 4) = h.val; omega
  | ⟨4, _⟩ => show ((((B.val * 49 + n.val) * 4 + h.val) * 32 + e.val) % 32) = e.val; omega

theorem idx_main_v12_ix (B : Fin 4096) (n : Fin 49) (h : Fin 4) (e : Fin 32) :
    idx_main_v12 (ix4 B n h e) = ix5 B n (0 : Fin 1) h e := by
  have := B.isLt; have := n.isLt; have := h.isLt; have := e.isLt
  funext a; apply Fin.ext
  match a with
  | ⟨0, _⟩ => show ((((B.val * 49 + n.val) * 4 + h.val) * 32 + e.val) / 6272) = B.val; omega
  | ⟨1, _⟩ => show ((((B.val * 49 + n.val) * 4 + h.val) * 32 + e.val) / 128 % 49) = n.val; omega
  | ⟨2, _⟩ => rfl
  | ⟨3, _⟩ => show ((((B.val * 49 + n.val) * 4 + h.val) * 32 + e.val) / 32 % 4) = h.val; omega
  | ⟨4, _⟩ => show ((((B.val * 49 + n.val) * 4 + h.val) * 32 + e.val) % 32) = e.val; omega

theorem idx_main_v4_ix (B : Fin 4096) (n : Fin 49) (s : Fin 3) (h : Fin 4) (e : Fin 32) :
    idx_main_v4 (ix5 B n s h e) = ix3 B n ⟨128 * s.val + 32 * h.val + e.val, by have := s.isLt; have := h.isLt; have := e.isLt; omega⟩ := by
  have := B.isLt; have := n.isLt; have := s.isLt; have := h.isLt; have := e.isLt
  funext a; apply Fin.ext
  match a with
  | ⟨0, _⟩ => show (((((B.val * 49 + n.val) * 3 + s.val) * 4 + h.val) * 32 + e.val) / 18816) = B.val; omega
  | ⟨1, _⟩ => show (((((B.val * 49 + n.val) * 3 + s.val) * 4 + h.val) * 32 + e.val) / 384 % 49) = n.val; omega
  | ⟨2, _⟩ => show (((((B.val * 49 + n.val) * 3 + s.val) * 4 + h.val) * 32 + e.val) % 384) = 128 * s.val + 32 * h.val + e.val; omega

theorem idx_main_v43_ix (B : Fin 4096) (n : Fin 49) (c : Fin 128) :
    idx_main_v43 (ix3 B n c) = ix4 B n ⟨c.val / 32, by have := c.isLt; omega⟩ ⟨c.val % 32, Nat.mod_lt _ (by decide)⟩ := by
  have := B.isLt; have := n.isLt; have := c.isLt
  funext a; apply Fin.ext
  match a with
  | ⟨0, _⟩ => show (((B.val * 49 + n.val) * 128 + c.val) / 6272) = B.val; omega
  | ⟨1, _⟩ => show (((B.val * 49 + n.val) * 128 + c.val) / 128 % 49) = n.val; omega
  | ⟨2, _⟩ => show (((B.val * 49 + n.val) * 128 + c.val) / 32 % 4) = c.val / 32; omega
  | ⟨3, _⟩ => show (((B.val * 49 + n.val) * 128 + c.val) % 32) = c.val % 32; omega

/-! ## The projection and its three groups -/

/-- The fused projection at (window B, token n, channel o). -/
theorem v3_at (x0 : (⟨S4096x49x128, .f32⟩ : BufTy).Contents (Elt Ideal)) (x1 : (⟨S384x128, .f32⟩ : BufTy).Contents (Elt Ideal)) (x2 : (⟨S384, .f32⟩ : BufTy).Contents (Elt Ideal)) (B : Fin 4096) (n : Fin 49) (o : Fin 384) :
    val_main_v3 (F := Ideal) x0 x1 x2 (ix3 B n o)
      = WinAttn.qkv (fun n c => x0 (ix3 B n c)) (fun o c => x1 (ix2 o c)) (fun o => x2 (ix1 o)) n o := by
  rw [val_main_v3_apply, val_main_v0_apply, val_main_v2_apply, val_main_v1_apply]
  unfold WinAttn.qkv
  show _ + _ = _
  congr 1
  · refine Finset.sum_congr rfl fun c _ => ?_
    congr 1
    · exact congrArg x0 (funext fun a => Fin.ext (match a with | ⟨0, _⟩ => rfl | ⟨1, _⟩ => rfl | ⟨2, _⟩ => rfl))
    · exact congrArg x1 (funext fun a => Fin.ext (match a with | ⟨0, _⟩ => rfl | ⟨1, _⟩ => rfl))
  · exact congrArg x2 (funext fun a => Fin.ext (match a with | ⟨0, _⟩ => rfl))

/-- Queries: head `h`, token `n`, lane `e` is channel 32h + e of the projection. -/
theorem v7_at (x0 : (⟨S4096x49x128, .f32⟩ : BufTy).Contents (Elt Ideal)) (x1 : (⟨S384x128, .f32⟩ : BufTy).Contents (Elt Ideal)) (x2 : (⟨S384, .f32⟩ : BufTy).Contents (Elt Ideal)) (B : Fin 4096) (h : Fin 4) (n : Fin 49) (e : Fin 32) :
    val_main_v7 (F := Ideal) x0 x1 x2 (ix4 B h n e)
      = val_main_v3 (F := Ideal) x0 x1 x2 (ix3 B n ⟨32 * h.val + e.val, by have := h.isLt; have := e.isLt; omega⟩) := by
  rw [val_main_v7_apply, val_main_v6_apply, val_main_v5_apply, val_main_v4_apply]
  refine congrArg _ ?_
  rw [show idx_main_v7 (ix4 B h n e) = ix4 B n h e from funext fun a => Fin.ext (match a with | ⟨0, _⟩ => rfl | ⟨1, _⟩ => rfl | ⟨2, _⟩ => rfl | ⟨3, _⟩ => rfl),
    idx_main_v6_ix,
    show idx_main_v5 (ix5 B n (0 : Fin 1) h e) = ix5 B n (0 : Fin 3) h e from funext fun a => Fin.ext (match a with | ⟨0, _⟩ => rfl | ⟨1, _⟩ => rfl | ⟨2, _⟩ => rfl | ⟨3, _⟩ => rfl | ⟨4, _⟩ => rfl),
    idx_main_v4_ix]
  exact congrArg (ix3 B n) (Fin.ext (by show 128 * 0 + 32 * h.val + e.val = 32 * h.val + e.val; omega))

/-- Keys: head `h`, token `n`, lane `e` is channel 128 + 32h + e of the projection. -/
theorem v10_at (x0 : (⟨S4096x49x128, .f32⟩ : BufTy).Contents (Elt Ideal)) (x1 : (⟨S384x128, .f32⟩ : BufTy).Contents (Elt Ideal)) (x2 : (⟨S384, .f32⟩ : BufTy).Contents (Elt Ideal)) (B : Fin 4096) (h : Fin 4) (n : Fin 49) (e : Fin 32) :
    val_main_v10 (F := Ideal) x0 x1 x2 (ix4 B h n e)
      = val_main_v3 (F := Ideal) x0 x1 x2 (ix3 B n ⟨128 + 32 * h.val + e.val, by have := h.isLt; have := e.isLt; omega⟩) := by
  rw [val_main_v10_apply, val_main_v9_apply, val_main_v8_apply, val_main_v4_apply]
  refine congrArg _ ?_
  rw [show idx_main_v10 (ix4 B h n e) = ix4 B n h e from funext fun a => Fin.ext (match a with | ⟨0, _⟩ => rfl | ⟨1, _⟩ => rfl | ⟨2, _⟩ => rfl | ⟨3, _⟩ => rfl),
    idx_main_v9_ix,
    show idx_main_v8 (ix5 B n (0 : Fin 1) h e) = ix5 B n (1 : Fin 3) h e from funext fun a => Fin.ext (match a with | ⟨0, _⟩ => rfl | ⟨1, _⟩ => rfl | ⟨2, _⟩ => rfl | ⟨3, _⟩ => rfl | ⟨4, _⟩ => rfl),
    idx_main_v4_ix]
  exact congrArg (ix3 B n) (Fin.ext (by show 128 * 1 + 32 * h.val + e.val = 128 + 32 * h.val + e.val; omega))

/-- Values: head `h`, token `n`, lane `e` is channel 256 + 32h + e of the projection. -/
theorem v13_at (x0 : (⟨S4096x49x128, .f32⟩ : BufTy).Contents (Elt Ideal)) (x1 : (⟨S384x128, .f32⟩ : BufTy).Contents (Elt Ideal)) (x2 : (⟨S384, .f32⟩ : BufTy).Contents (Elt Ideal)) (B : Fin 4096) (h : Fin 4) (n : Fin 49) (e : Fin 32) :
    val_main_v13 (F := Ideal) x0 x1 x2 (ix4 B h n e)
      = val_main_v3 (F := Ideal) x0 x1 x2 (ix3 B n ⟨256 + 32 * h.val + e.val, by have := h.isLt; have := e.isLt; omega⟩) := by
  rw [val_main_v13_apply, val_main_v12_apply, val_main_v11_apply, val_main_v4_apply]
  refine congrArg _ ?_
  rw [show idx_main_v13 (ix4 B h n e) = ix4 B n h e from funext fun a => Fin.ext (match a with | ⟨0, _⟩ => rfl | ⟨1, _⟩ => rfl | ⟨2, _⟩ => rfl | ⟨3, _⟩ => rfl),
    idx_main_v12_ix,
    show idx_main_v11 (ix5 B n (0 : Fin 1) h e) = ix5 B n (2 : Fin 3) h e from funext fun a => Fin.ext (match a with | ⟨0, _⟩ => rfl | ⟨1, _⟩ => rfl | ⟨2, _⟩ => rfl | ⟨3, _⟩ => rfl | ⟨4, _⟩ => rfl),
    idx_main_v4_ix]
  exact congrArg (ix3 B n) (Fin.ext (by show 128 * 2 + 32 * h.val + e.val = 256 + 32 * h.val + e.val; omega))

/-! ## Scores, softmax, weighted sum, per (window, head) -/

/-- The window's projection as a function of token and channel. -/
abbrev Qw (x0 : (⟨S4096x49x128, .f32⟩ : BufTy).Contents (Elt Ideal)) (x1 : (⟨S384x128, .f32⟩ : BufTy).Contents (Elt Ideal)) (x2 : (⟨S384, .f32⟩ : BufTy).Contents (Elt Ideal)) (B : Fin 4096) : Fin 49 → Fin 384 → EReal :=
  WinAttn.qkv (fun n c => x0 (ix3 B n c)) (fun o c => x1 (ix2 o c)) (fun o => x2 (ix1 o))

/-- The heads' biases as the reference gathers them. -/
abbrev βr (x5 : (⟨S169x4, .f32⟩ : BufTy).Contents (Elt Ideal)) (x6 : (⟨S49x49, .i32⟩ : BufTy).Contents (Elt Ideal)) : Fin 4 → Fin 49 → Fin 49 → EReal :=
  fun h n m => val_main_v26 (F := Ideal) x5 x6 (ix3 h n m)

theorem v29_at (x0 : (⟨S4096x49x128, .f32⟩ : BufTy).Contents (Elt Ideal)) (x1 : (⟨S384x128, .f32⟩ : BufTy).Contents (Elt Ideal)) (x2 : (⟨S384, .f32⟩ : BufTy).Contents (Elt Ideal)) (x5 : (⟨S169x4, .f32⟩ : BufTy).Contents (Elt Ideal)) (x6 : (⟨S49x49, .i32⟩ : BufTy).Contents (Elt Ideal)) (B : Fin 4096) (h : Fin 4) (n m : Fin 49) :
    val_main_v29 (F := Ideal) x0 x1 x2 x5 x6 (ix4 B h n m)
      = WinAttn.score (WinAttn.lanes (Qw x0 x1 x2 B) (32 * h.val) (by have := h.isLt; omega))
          (WinAttn.lanes (Qw x0 x1 x2 B) (128 + 32 * h.val) (by have := h.isLt; omega)) (βr x5 x6 h) n m := by
  rw [val_main_v29_apply, val_main_v16_apply, val_main_v28_apply, val_main_v27_apply]
  unfold WinAttn.score
  show _ + _ = _
  congr 1
  · refine Finset.sum_congr rfl fun e _ => ?_
    rw [show lidx_main_v16 (ix4 B h n m) e = ix4 B h n e from funext fun a => Fin.ext (match a with | ⟨0, _⟩ => rfl | ⟨1, _⟩ => rfl | ⟨2, _⟩ => rfl | ⟨3, _⟩ => rfl),
      show ridx_main_v16 (ix4 B h n m) e = ix4 B h m e from funext fun a => Fin.ext (match a with | ⟨0, _⟩ => rfl | ⟨1, _⟩ => rfl | ⟨2, _⟩ => rfl | ⟨3, _⟩ => rfl),
      val_main_v15_apply, v7_at, v10_at, v3_at, v3_at]
    rfl

theorem v32_at (x0 : (⟨S4096x49x128, .f32⟩ : BufTy).Contents (Elt Ideal)) (x1 : (⟨S384x128, .f32⟩ : BufTy).Contents (Elt Ideal)) (x2 : (⟨S384, .f32⟩ : BufTy).Contents (Elt Ideal)) (x5 : (⟨S169x4, .f32⟩ : BufTy).Contents (Elt Ideal)) (x6 : (⟨S49x49, .i32⟩ : BufTy).Contents (Elt Ideal)) (B : Fin 4096) (h : Fin 4) (n : Fin 49) :
    val_main_v32 (F := Ideal) x0 x1 x2 x5 x6 (ix3 B h n)
      = WinAttn.rowMax (fun m => val_main_v29 (F := Ideal) x0 x1 x2 x5 x6 (ix4 B h n m)) := by
  rw [val_main_v32_apply]
  unfold val_main_v30 WinAttn.rowMax
  rw [Host.reduce_eq_fold_single FloatOps.maximumf _ _ reducesTo_S4096x4x49x49_S4096x4x49_d3 (by decide) h_S_]
  show max (Ideal.ofBits .f32 0xFF800000#32) ((Finset.univ : Finset (Fin 49)).fold max (Ideal.ofBits .f32 0xFF800000#32) _) = _
  rfl

theorem v36_at (x0 : (⟨S4096x49x128, .f32⟩ : BufTy).Contents (Elt Ideal)) (x1 : (⟨S384x128, .f32⟩ : BufTy).Contents (Elt Ideal)) (x2 : (⟨S384, .f32⟩ : BufTy).Contents (Elt Ideal)) (x5 : (⟨S169x4, .f32⟩ : BufTy).Contents (Elt Ideal)) (x6 : (⟨S49x49, .i32⟩ : BufTy).Contents (Elt Ideal)) (B : Fin 4096) (h : Fin 4) (n m : Fin 49) :
    val_main_v36 (F := Ideal) x0 x1 x2 x5 x6 (ix4 B h n m)
      = Ideal.exp (val_main_v29 (F := Ideal) x0 x1 x2 x5 x6 (ix4 B h n m)
          - WinAttn.rowMax (fun m' => val_main_v29 (F := Ideal) x0 x1 x2 x5 x6 (ix4 B h n m'))) := by
  rw [val_main_v36_apply, val_main_v35_apply, val_main_v34_apply, val_main_v33_apply,
    show idx_main_v33 (idx_main_v34 (ix4 B h n m)) = ix3 B h n from funext fun a => Fin.ext (match a with | ⟨0, _⟩ => rfl | ⟨1, _⟩ => rfl | ⟨2, _⟩ => rfl), v32_at]
  rfl

theorem v40_at (x0 : (⟨S4096x49x128, .f32⟩ : BufTy).Contents (Elt Ideal)) (x1 : (⟨S384x128, .f32⟩ : BufTy).Contents (Elt Ideal)) (x2 : (⟨S384, .f32⟩ : BufTy).Contents (Elt Ideal)) (x5 : (⟨S169x4, .f32⟩ : BufTy).Contents (Elt Ideal)) (x6 : (⟨S49x49, .i32⟩ : BufTy).Contents (Elt Ideal)) (B : Fin 4096) (h : Fin 4) (n m : Fin 49) :
    val_main_v40 (F := Ideal) x0 x1 x2 x5 x6 (ix4 B h n m)
      = WinAttn.soft (fun m' => val_main_v29 (F := Ideal) x0 x1 x2 x5 x6 (ix4 B h n m')) m := by
  rw [val_main_v40_apply, val_main_v39_apply, val_main_v38_apply,
    show idx_main_v38 (idx_main_v39 (ix4 B h n m)) = ix3 B h n from funext fun a => Fin.ext (match a with | ⟨0, _⟩ => rfl | ⟨1, _⟩ => rfl | ⟨2, _⟩ => rfl),
    val_main_v37_apply]
  unfold WinAttn.soft
  show Ideal.div _ (Ideal.ofBits .f32 0x00000000#32 + _) = _
  rw [Ideal.ofBits_zero_f32, zero_add, v36_at]
  refine congrArg (Ideal.div _) ?_
  refine Finset.sum_congr rfl fun k _ => ?_
  rw [show idx_main_v37 (ix3 B h n) k = ix4 B h n k from funext fun a => Fin.ext (match a with | ⟨0, _⟩ => rfl | ⟨1, _⟩ => rfl | ⟨2, _⟩ => rfl | ⟨3, _⟩ => rfl), v36_at]

/-- One head of one window. -/
theorem v41_at (x0 : (⟨S4096x49x128, .f32⟩ : BufTy).Contents (Elt Ideal)) (x1 : (⟨S384x128, .f32⟩ : BufTy).Contents (Elt Ideal)) (x2 : (⟨S384, .f32⟩ : BufTy).Contents (Elt Ideal)) (x5 : (⟨S169x4, .f32⟩ : BufTy).Contents (Elt Ideal)) (x6 : (⟨S49x49, .i32⟩ : BufTy).Contents (Elt Ideal)) (B : Fin 4096) (h : Fin 4) (n : Fin 49) (d : Fin 32) :
    val_main_v41 (F := Ideal) x0 x1 x2 x5 x6 (ix4 B h n d) = WinAttn.headOf (Qw x0 x1 x2 B) (βr x5 x6) h n d := by
  rw [val_main_v41_apply]
  unfold WinAttn.headOf WinAttn.head
  refine Finset.sum_congr rfl fun m _ => ?_
  rw [show lidx_main_v41 (ix4 B h n d) m = ix4 B h n m from funext fun a => Fin.ext (match a with | ⟨0, _⟩ => rfl | ⟨1, _⟩ => rfl | ⟨2, _⟩ => rfl | ⟨3, _⟩ => rfl),
    show ridx_main_v41 (ix4 B h n d) m = ix4 B h m d from funext fun a => Fin.ext (match a with | ⟨0, _⟩ => rfl | ⟨1, _⟩ => rfl | ⟨2, _⟩ => rfl | ⟨3, _⟩ => rfl),
    v40_at, v13_at, v3_at]
  rw [show (fun m' => val_main_v29 (F := Ideal) x0 x1 x2 x5 x6 (ix4 B h n m'))
      = WinAttn.score (WinAttn.lanes (Qw x0 x1 x2 B) (32 * h.val) (by have := h.isLt; omega))
          (WinAttn.lanes (Qw x0 x1 x2 B) (128 + 32 * h.val) (by have := h.isLt; omega)) (βr x5 x6 h) n
    from funext fun m' => v29_at x0 x1 x2 x5 x6 B h n m']
  rfl

/-! ## The result -/

/-- The reference's result at (window B, token n, channel o) is the layer on window B. -/
theorem v47_at (x0 : (⟨S4096x49x128, .f32⟩ : BufTy).Contents (Elt Ideal)) (x1 : (⟨S384x128, .f32⟩ : BufTy).Contents (Elt Ideal)) (x2 : (⟨S384, .f32⟩ : BufTy).Contents (Elt Ideal)) (x3 : (⟨S128x128, .f32⟩ : BufTy).Contents (Elt Ideal)) (x4 : (⟨S128, .f32⟩ : BufTy).Contents (Elt Ideal)) (x5 : (⟨S169x4, .f32⟩ : BufTy).Contents (Elt Ideal)) (x6 : (⟨S49x49, .i32⟩ : BufTy).Contents (Elt Ideal)) (B : Fin 4096) (n : Fin 49) (o : Fin 128) :
    val_main_v47 (F := Ideal) x0 x1 x2 x3 x4 x5 x6 (ix3 B n o)
      = WinAttn.out (fun n c => x0 (ix3 B n c)) (fun o c => x1 (ix2 o c)) (fun o => x2 (ix1 o))
          (fun o c => x3 (ix2 o c)) (fun o => x4 (ix1 o)) (βr x5 x6) n o := by
  rw [val_main_v47_apply, val_main_v44_apply, val_main_v46_apply, val_main_v45_apply]
  unfold WinAttn.out
  show _ + _ = _
  congr 1
  · refine Finset.sum_congr rfl fun c _ => ?_
    rw [show lidx_main_v44 (ix3 B n o) c = ix3 B n c from funext fun a => Fin.ext (match a with | ⟨0, _⟩ => rfl | ⟨1, _⟩ => rfl | ⟨2, _⟩ => rfl),
      val_main_v43_apply, val_main_v42_apply, idx_main_v43_ix,
      show idx_main_v42 (ix4 B n (⟨c.val / 32, by have := c.isLt; omega⟩ : Fin 4) (⟨c.val % 32, Nat.mod_lt _ (by decide)⟩ : Fin 32))
        = ix4 B ⟨c.val / 32, by have := c.isLt; omega⟩ n ⟨c.val % 32, Nat.mod_lt _ (by decide)⟩ from funext fun a => Fin.ext (match a with | ⟨0, _⟩ => rfl | ⟨1, _⟩ => rfl | ⟨2, _⟩ => rfl | ⟨3, _⟩ => rfl),
      v41_at]
    unfold WinAttn.heads
    congr 1
    exact congrArg x3 (funext fun a => Fin.ext (match a with | ⟨0, _⟩ => rfl | ⟨1, _⟩ => rfl))
  · exact congrArg x4 (funext fun a => Fin.ext (match a with | ⟨0, _⟩ => rfl))

end Cert.ReferenceIdeal.RefAttn

end
-- ==== Proof.Bridge.lean ====
/-
  The two programs compute one function.

  The kernel's run ends with the result array at the layer of its five float arguments and of the position biases
  its host prefix gathered; the reference's run ends at its composed term, which read index by index is the layer
  of its arguments and of the biases IT gathered.  Both gather the biases by the same host operations (flatten the
  index table, wrap negative indices once by 169, gather rows of the [169, 4] table, re-lay to [4, 49, 49]), so
  from agreeing arguments the two bias arrays are one array and the two results are equal entry by entry.
-/
import proofs.«157250_j5677946766063_1_alg».proof.Defs
import proofs.«157250_j5677946766063_1_alg».proof.Proof.KernelValue
import proofs.«157250_j5677946766063_1_alg».proof.Proof.RefValue
import proofs.«157250_j5677946766063_1_alg».proof.Proof.Layer
import Idealize.ShloMosaic.Lib.StableHlo.Run

set_option maxRecDepth 16384

noncomputable section

namespace Cert.Proof.Bridge

open Idealize.ShloMosaic Idealize.ShloMosaic.TcCoe Idealize.ShloMosaic.ValueIdx Idealize.SL.Sem Idealize.ShloMosaic.StableHlo

/-- The reference's result, as a whole array, is the layer of its arguments and of the biases it gathers. -/
theorem ref_layer (x0 : (⟨Cert.ReferenceIdeal.S4096x49x128, .f32⟩ : BufTy).Contents (Elt Ideal)) (x1 : (⟨Cert.ReferenceIdeal.S384x128, .f32⟩ : BufTy).Contents (Elt Ideal)) (x2 : (⟨Cert.ReferenceIdeal.S384, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S169x4, .f32⟩ : BufTy).Contents (Elt Ideal)) (x6 : (⟨Cert.ReferenceIdeal.S49x49, .i32⟩ : BufTy).Contents (Elt Ideal)) :
    Cert.ReferenceIdeal.Read.val_main_v47 (F := Ideal) x0 x1 x2 x3 x4 x5 x6
      = WinAttn.layer x0 x1 x2 x3 x4 (Cert.ReferenceIdeal.Read.val_main_v26 (F := Ideal) x5 x6) := by
  funext i
  obtain ⟨B, n, o, rfl⟩ : ∃ (B : Fin 4096) (n : Fin 49) (o : Fin 128), i = ix3 B n o := ⟨i 0, i 1, i 2, eq_ix3 i⟩
  rw [Cert.ReferenceIdeal.RefAttn.v47_at]
  rfl

/-- The position biases the kernel's host prefix leaves for the region are the reference's gather of the same
    table by the same indices. -/
theorem bias_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v9 : Cert.KernelIdeal.S4x49x49.Idx → EReal)
      = Cert.ReferenceIdeal.Read.val_main_v26 (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  dsimp only [Cert.KernelIdeal.Gen.V, Cert.KernelIdeal.Gen.hostOps0]
  after_results
  rfl

theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => WinAttn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (Cert.ReferenceIdeal.Read.val_main_v26 (F := Ideal) (m ((c.tc : Thread Cert.KernelIdeal.nD Cert.KernelIdeal.τ).loc Cert.KernelIdeal.main_arg5)) (m ((c.tc : Thread Cert.KernelIdeal.nD Cert.KernelIdeal.τ).loc Cert.KernelIdeal.main_arg6))), ?_, ?_⟩
  · exact (θ_run Cert.KernelIdeal.defs _ _).mono (fun r h c => ⟨((h c).1).trans (by rw [bias_eq]), (h c).2⟩)
      (Cert.KernelIdeal.AttnValue.run m ρ)
  · refine (θ_run Cert.ReferenceIdeal.defs _ _).mono (fun r h c => ⟨((h c).1).trans ?_, (h c).2⟩)
      (Cert.ReferenceIdeal.Value.run (F := Ideal) m' ρ')
    rw [Cert.ReferenceIdeal.Read.val_main_v47_eq, ref_layer, (hagree c).1, (hagree c).2.1, (hagree c).2.2.1, (hagree c).2.2.2.1,
      (hagree c).2.2.2.2.1, (hagree c).2.2.2.2.2.1, (hagree c).2.2.2.2.2.2]

end Cert.Proof.Bridge

end
-- ==== Proof.lean ====
/-
  Windowed self-attention with relative-position biases: the Pallas kernel against its jnp reference.

  Both programs take 4096 windows of 49 tokens with 128 channels and compute, window by window,
      out = concat_h softmax((x Wq_hᵀ + bq_h) σ (x Wk_hᵀ + bk_h)ᵀ + β_h) (x Wv_hᵀ + bv_h) · Wpᵀ + bp
  over four heads of 32 lanes, with the per-head position biases β gathered on the host from a [169, 4] table.
  The kernel does this for 64 windows per grid point on rows flattened to 3136 × 128, cutting heads out of the
  fused projection by channel slices and laying the heads' outputs side by side; the reference keeps a head axis
  and transposes.  On the extended reals both are the same sums over the same index sets (a change of float format
  is the identity, the scale σ is the same f32 word on both sides), so the results agree entry by entry whatever the
  inputs' values; the precondition is not used.

  The kernel's and the idealized kernel's frames are the generated ones; the reference's frame is its generated
  run with the result dropped; the ideal pass rewrote nothing, so `preserves` is trivial; the value claim is
  `Bridge.algebraic`.
-/
import proofs.«157250_j5677946766063_1_alg».proof.Defs
import proofs.«157250_j5677946766063_1_alg».proof.Proof.Gen.Kernel
import proofs.«157250_j5677946766063_1_alg».proof.Proof.Gen.Kernel.Skeleton
import proofs.«157250_j5677946766063_1_alg».proof.Proof.Gen.Kernel.Launch
import proofs.«157250_j5677946766063_1_alg».proof.Proof.Gen.Kernel.Points
import proofs.«157250_j5677946766063_1_alg».proof.Proof.Gen.Kernel.Frame
import proofs.«157250_j5677946766063_1_alg».proof.Proof.Gen.KernelIdeal
import proofs.«157250_j5677946766063_1_alg».proof.Proof.Gen.KernelIdeal.Skeleton
import proofs.«157250_j5677946766063_1_alg».proof.Proof.Gen.KernelIdeal.Launch
import proofs.«157250_j5677946766063_1_alg».proof.Proof.Gen.KernelIdeal.Points
import proofs.«157250_j5677946766063_1_alg».proof.Proof.Gen.KernelIdeal.Frame
import proofs.«157250_j5677946766063_1_alg».proof.Proof.Gen.ReferenceIdeal
import proofs.«157250_j5677946766063_1_alg».proof.Proof.Gen.Pre_finite_inputs
import proofs.«157250_j5677946766063_1_alg».proof.Proof.Gen.ReferenceIdeal.Run
import proofs.«157250_j5677946766063_1_alg».proof.Proof.Gen.ReferenceIdeal.Read
import proofs.«157250_j5677946766063_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Bridge.algebraic⟩

end Cert.Proof

end
